-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000x128 : Shape := ⟨2, ![50000, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x256 .f32) (main_arg7 : FVec F S128 .f32) (main_arg8 : FVec F S64x128 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_v33

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) (main_arg6 : FVec F S128x256 .f32) (main_arg7 : FVec F S128 .f32) (main_arg8 : FVec F S64x128 .f32) (main_arg9 : FVec F S64 .f32) (main_arg10 : IVec S50000x256 1) (main_arg11 : IVec S50000x128 1) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000x128 : Shape := ⟨2, ![50000, 128]⟩
abbrev S1x256 : Shape := ⟨2, ![1, 256]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x128 : Shape := ⟨2, ![1, 128]⟩
abbrev S2000x128 : Shape := ⟨2, ![2000, 128]⟩
abbrev S256x128 : Shape := ⟨2, ![256, 128]⟩
abbrev S800000x128 : Shape := ⟨2, ![800000, 128]⟩
abbrev S1x64 : Shape := ⟨2, ![1, 64]⟩
abbrev S50000x64 : Shape := ⟨2, ![50000, 64]⟩
abbrev S2000x64 : Shape := ⟨2, ![2000, 64]⟩
abbrev S128x64 : Shape := ⟨2, ![128, 64]⟩
abbrev S800000x64 : Shape := ⟨2, ![800000, 64]⟩

abbrev nBuf : Space → Nat
  | .hbm => 70
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S50000x256, .i1⟩
  | .hbm, ⟨11, _⟩ => ⟨S50000x128, .i1⟩
  | .hbm, ⟨12, _⟩ => ⟨S50000x256, .f32⟩
  | .hbm, ⟨13, _⟩ => ⟨S50000x128, .f32⟩
  | .hbm, ⟨14, _⟩ => ⟨S1x256, .f32⟩
  | .hbm, ⟨15, _⟩ => ⟨S50000x256, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x256, .f32⟩
  | .hbm, ⟨26, _⟩ => ⟨S800000x256, .f32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S50000x256, .f32⟩
  | .hbm, ⟨33, _⟩ => ⟨S1x128, .f32⟩
  | .hbm, ⟨34, _⟩ => ⟨S50000x128, .f32⟩
  | .hbm, ⟨35, _⟩ => ⟨S800000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x128, .f32⟩
  | .hbm, ⟨52, _⟩ => ⟨S1x64, .f32⟩
  | .hbm, ⟨53, _⟩ => ⟨S50000x64, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S800000x64, .f32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S128x256, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S64x128, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  shapeCasts_S128_S1x128 : S128.ShapeCasts S1x128
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v33) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000x128 : Shape := ⟨2, ![50000, 128]⟩
abbrev S1x256 : Shape := ⟨2, ![1, 256]⟩
abbrev S800000x1 : Shape := ⟨2, ![800000, 1]⟩
abbrev S_ : Shape := ⟨0, ![]⟩
abbrev S800000x256 : Shape := ⟨2, ![800000, 256]⟩
abbrev S256x128 : Shape := ⟨2, ![256, 128]⟩
abbrev S1x128 : Shape := ⟨2, ![1, 128]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 103
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S50000x256, .i1⟩
  | .hbm, ⟨11, _⟩ => ⟨S50000x128, .i1⟩
  | .hbm, ⟨12, _⟩ => ⟨S256x256, .f32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S800000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S800000x256, .f32⟩
  | .hbm, ⟨28, _⟩ => ⟨S800000x256, .f32⟩
  | .hbm, ⟨29, _⟩ => ⟨S_, .f32⟩
  | .hbm, ⟨30, _⟩ => ⟨S50000x256, .f32⟩
  | .hbm, ⟨31, _⟩ => ⟨S800000x1, .i32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .i1⟩
  | .hbm, ⟨36, _⟩ => ⟨S_, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S256x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S800000x1, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .i1⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S128x64, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S800000x1, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x64, .f32⟩
  | .hbm, ⟨97, _⟩ => ⟨S800000x64, .f32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_call3_v0 : Ref sig .tc := ⟨.hbm, 79, rfl⟩
abbrev main_call3_v1 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The kernel's program run once more, this time keeping what the last host operation wrote: every weakly fair
  execution of the five regions among their host stretches terminates, the result buffer ends at the fold of the
  program's segments read at that buffer, and the arguments end as launched. (The frame claim forgets the result
  buffer; the value claim needs it.)
-/
import proofs.«151089_j50611894616713_1_alg».proof.Proof.Gen.KernelIdeal.Frame

set_option maxRecDepth 16384

noncomputable section

namespace Cert.Encoder.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the program's eleven segments with the last boundary's contents read at the result buffer as well
    as at the twelve arguments: the result ends at the fold `W11` read at `main_v48`. -/
theorem run_named : θ_run defs (onTc (τ := τ) (main (F := F))) ⟨m, fun _ => 0, ρ⟩ (fun r => ∀ c : Dev nD,
      r.2.mem ((c.tc : Thread nD τ).loc main_v48) = W11 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v48 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.Encoder.KernelRun

end
-- ==== Proof.Spec.lean ====
/-
  The three-layer graph encoder, stage by stage, as functions on whole arrays of extended reals.

  A layer is a dense map (`dense`: x ↦ x · wᵀ + b), then the sparse adjacency product (`spmm`: gather the rows the
  edges name, scale each by its edge weight, sum them into the edges' target rows), and, after the first two layers,
  the activation (`act`: leaky rectifier, dropout rescale, keep mask). Both programs compute the composition
  spmm ∘ dense ∘ act ∘ spmm ∘ dense ∘ act ∘ spmm ∘ dense; they differ only in how `dense` and `act` are evaluated.
-/
import proofs.«151089_j50611894616713_1_alg».proof.Proof.Gen.KernelIdeal
import Idealize.ShloMosaic.PureOps.Ideal
import Idealize.ShloMosaic.PureOps.Ideal.Laws
import Idealize.ShloMosaic.Lib.ValueIdx

noncomputable section

namespace Cert.Encoder

open Idealize.ShloMosaic Idealize.ShloMosaic.ValueIdx Cert.KernelIdeal
open scoped BigOperators

open Cert.KernelIdeal.Facts₀ Cert.KernelIdeal.Facts

/-- A dense layer from 256 to 256 features: entry (r, j) is the sum over k of x[r, k] · w[j, k] plus the bias b[0, j]
    (the bias held as a one-row matrix). -/
def dense1 (x : FVec Ideal S50000x256 .f32) (w : FVec Ideal S256x256 .f32) (b : FVec Ideal S1x256 .f32) : FVec Ideal S50000x256 .f32 :=
  fun i => (∑ k : Fin 256, x (ix2 (⟨(i 0).val, (i 0).isLt⟩ : Fin 50000) k) * w (ix2 (⟨(i 1).val, (i 1).isLt⟩ : Fin 256) k))
    + b (ix2 (⟨0, by decide⟩ : Fin 1) (⟨(i 1).val, (i 1).isLt⟩ : Fin 256))

/-- A dense layer from 256 to 128 features: entry (r, j) is the sum over k of x[r, k] · w[j, k] plus the bias b[0, j]
    (the bias held as a one-row matrix). -/
def dense2 (x : FVec Ideal S50000x256 .f32) (w : FVec Ideal S128x256 .f32) (b : FVec Ideal S1x128 .f32) : FVec Ideal S50000x128 .f32 :=
  fun i => (∑ k : Fin 256, x (ix2 (⟨(i 0).val, (i 0).isLt⟩ : Fin 50000) k) * w (ix2 (⟨(i 1).val, (i 1).isLt⟩ : Fin 128) k))
    + b (ix2 (⟨0, by decide⟩ : Fin 1) (⟨(i 1).val, (i 1).isLt⟩ : Fin 128))

/-- A dense layer from 128 to 64 features: entry (r, j) is the sum over k of x[r, k] · w[j, k] plus the bias b[0, j]
    (the bias held as a one-row matrix). -/
def dense3 (x : FVec Ideal S50000x128 .f32) (w : FVec Ideal S64x128 .f32) (b : FVec Ideal S1x64 .f32) : FVec Ideal S50000x64 .f32 :=
  fun i => (∑ k : Fin 128, x (ix2 (⟨(i 0).val, (i 0).isLt⟩ : Fin 50000) k) * w (ix2 (⟨(i 1).val, (i 1).isLt⟩ : Fin 64) k))
    + b (ix2 (⟨0, by decide⟩ : Fin 1) (⟨(i 1).val, (i 1).isLt⟩ : Fin 64))

/-- The activation at one entry: the leaky rectifier (slope 0.2 on the negative side), the dropout rescale by 1.25, and
    the product with the entry's keep mask as a float (zero or one). The three literals are the single-precision words
    of 0, 0.2 and 1.25; they are the same words in both programs and are never evaluated. -/
def actS (h mf : Ideal .f32) : Ideal .f32 :=
  FloatOps.mulf (FloatOps.mulf (Scalar.select (FloatOps.cmpf .oge h (Scalar.ofBits .f32 0x00000000#32)) h
      (FloatOps.mulf (Scalar.ofBits .f32 0x3E4CCCCD#32) h)) (Scalar.ofBits .f32 0x3FA00000#32)) mf

/-- The activation on a feature width of 256, entry by entry. -/
def act1 (h mf : FVec Ideal S50000x256 .f32) : FVec Ideal S50000x256 .f32 := fun i => actS (h i) (mf i)

/-- The activation on a feature width of 128, entry by entry. -/
def act2 (h mf : FVec Ideal S50000x128 .f32) : FVec Ideal S50000x128 .f32 := fun i => actS (h i) (mf i)

/-- The sparse adjacency product on a feature width of 256: every edge `e` carries `vals e` times row `cols e` of `h`
    (a negative column index counted from the end), and the edge messages are summed into row `rows e`. It is the
    same chain of host operations in the kernel's program and in the reference, so it is carried as one function
    and never opened. -/
def spmm1 (h : (⟨S50000x256, .f32⟩ : BufTy).Contents (Elt Ideal)) (rows cols : (⟨S800000, .i32⟩ : BufTy).Contents (Elt Ideal))
    (vals : (⟨S800000, .f32⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 h
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The sparse adjacency product on a feature width of 128: every edge `e` carries `vals e` times row `cols e` of `h`
    (a negative column index counted from the end), and the edge messages are summed into row `rows e`. It is the
    same chain of host operations in the kernel's program and in the reference, so it is carried as one function
    and never opened. -/
def spmm2 (h : (⟨S50000x128, .f32⟩ : BufTy).Contents (Elt Ideal)) (rows cols : (⟨S800000, .i32⟩ : BufTy).Contents (Elt Ideal))
    (vals : (⟨S800000, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 h
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The sparse adjacency product on a feature width of 64: every edge `e` carries `vals e` times row `cols e` of `h`
    (a negative column index counted from the end), and the edge messages are summed into row `rows e`. It is the
    same chain of host operations in the kernel's program and in the reference, so it is carried as one function
    and never opened. -/
def spmm3 (h : (⟨S50000x64, .f32⟩ : BufTy).Contents (Elt Ideal)) (rows cols : (⟨S800000, .i32⟩ : BufTy).Contents (Elt Ideal))
    (vals : (⟨S800000, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S50000x64_S800000x1_S800000x64_1_0_n_n_0_1_164 h
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

end Cert.Encoder

end
-- ==== Proof.LibMaskSelect.lean ====
/-
  A keep mask as a multiplier. At the ideal values a bit converted to a float is the extended real 0 or 1, and a product
  with it is a selection: y · 1 = y and y · 0 = 0 for EVERY extended real y, the two infinities included (on the extended
  reals zero times infinity is zero), so `where(mask, y, 0)` and `y * mask.astype(float)` are one function with no
  finiteness assumption. This is the law between a dropout written with `jnp.where` and one written as a product.
-/
import Idealize.ShloMosaic.PureOps.Ideal
import Idealize.ShloMosaic.PureOps.Ideal.Laws
import Idealize.ShloMosaic.Lib.ValueIdx

noncomputable section

namespace Cert.Lib.MaskSelect

open Idealize.ShloMosaic Idealize.ShloMosaic.ValueIdx

/-- Selecting `y` where the bit is set and the single-precision zero elsewhere is `y` times the bit read as a float. -/
theorem select_eq_mul_mask (b : BitVec 1) (y : Ideal .f32) :
    Scalar.select b y (FloatOps.ofBits (F := Ideal) .f32 0x00000000#32) = FloatOps.mulf y (FloatOps.uitofp (F := Ideal) .f32 b) := by
  by_cases hb : b = 1#1
  · subst hb
    rw [select_one]
    show y = y * (((1#1 : BitVec 1).toNat : ℝ) : EReal)
    simp
  · obtain rfl : b = 0#1 := eq_zero_of_ne_one hb
    rw [select_zero]
    show Ideal.ofBits .f32 0x00000000#32 = y * (((0#1 : BitVec 1).toNat : ℝ) : EReal)
    rw [Ideal.ofBits_zero_f32]
    simp

/-- The same with the mask as the left factor. -/
theorem select_eq_mask_mul (b : BitVec 1) (y : Ideal .f32) :
    Scalar.select b y (FloatOps.ofBits (F := Ideal) .f32 0x00000000#32) = FloatOps.mulf (FloatOps.uitofp (F := Ideal) .f32 b) y :=
  (select_eq_mul_mask b y).trans (mul_comm (G := EReal) _ _)

end Cert.Lib.MaskSelect

end
-- ==== Proof.Encoder.lean ====
/-
  The whole encoder as one function of the twelve argument arrays (the one algebraic law that joins the two programs'
  activations — multiplying by a keep mask of zeros and ones is selecting between the value and zero — is in
  LibMaskSelect).
-/
import proofs.«151089_j50611894616713_1_alg».proof.Proof.Spec
import proofs.«151089_j50611894616713_1_alg».proof.Proof.LibMaskSelect
import Idealize.ShloMosaic.Lib.ValueLayout

noncomputable section

namespace Cert.Encoder

open Idealize.ShloMosaic Idealize.ShloMosaic.ValueIdx Cert.KernelIdeal
open Cert.KernelIdeal.Facts₀ Cert.KernelIdeal.Facts

/-- A bias vector of length 256 laid out as a one-row matrix (the reshape the kernel's program applies on the host). -/
def row1 (b : (⟨S256, .f32⟩ : BufTy).Contents (Elt Ideal)) : FVec Ideal S1x256 .f32 := shapeCast S1x256 b shapeCasts_S256_S1x256
/-- A bias vector of length 128 laid out as a one-row matrix. -/
def row2 (b : (⟨S128, .f32⟩ : BufTy).Contents (Elt Ideal)) : FVec Ideal S1x128 .f32 := shapeCast S1x128 b shapeCasts_S128_S1x128
/-- A bias vector of length 64 laid out as a one-row matrix. -/
def row3 (b : (⟨S64, .f32⟩ : BufTy).Contents (Elt Ideal)) : FVec Ideal S1x64 .f32 := shapeCast S1x64 b shapeCasts_S64_S1x64

theorem row1_apply (b : (⟨S256, .f32⟩ : BufTy).Contents (Elt Ideal)) (u : Fin 1) (j : Fin 256) : row1 b (ix2 u j) = b (ix1 j) :=
  ValueIdx.shapeCast_a_1a_apply b _ u j
theorem row2_apply (b : (⟨S128, .f32⟩ : BufTy).Contents (Elt Ideal)) (u : Fin 1) (j : Fin 128) : row2 b (ix2 u j) = b (ix1 j) :=
  ValueIdx.shapeCast_a_1a_apply b _ u j
theorem row3_apply (b : (⟨S64, .f32⟩ : BufTy).Contents (Elt Ideal)) (u : Fin 1) (j : Fin 64) : row3 b (ix2 u j) = b (ix1 j) :=
  ValueIdx.shapeCast_a_1a_apply b _ u j

/-- THE ENCODER: three layers, each a dense map followed by the sparse adjacency product, the first two followed by the
    activation with that layer's keep mask read as a float array of zeros and ones. -/
def enc (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x256, .f32⟩ : BufTy).Contents (Elt Ideal))
    (x5 : (⟨S256, .f32⟩ : BufTy).Contents (Elt Ideal)) (x6 : (⟨S128x256, .f32⟩ : BufTy).Contents (Elt Ideal))
    (x7 : (⟨S128, .f32⟩ : BufTy).Contents (Elt Ideal)) (x8 : (⟨S64x128, .f32⟩ : BufTy).Contents (Elt Ideal))
    (x9 : (⟨S64, .f32⟩ : BufTy).Contents (Elt Ideal)) (x10 : (⟨S50000x256, .i1⟩ : BufTy).Contents (Elt Ideal))
    (x11 : (⟨S50000x128, .i1⟩ : BufTy).Contents (Elt Ideal)) : (⟨S50000x64, .f32⟩ : BufTy).Contents (Elt Ideal) :=
  spmm3 (dense3 (act2 (spmm2 (dense2 (act1 (spmm1 (dense1 x0 x4 (row1 x5)) x1 x2 x3) (uitofp (F := Ideal) .f32 x10)) x6 (row2 x7)) x1 x2 x3)
    (uitofp (F := Ideal) .f32 x11)) x8 (row3 x9)) x1 x2 x3

end Cert.Encoder

end
-- ==== Proof.Dense1.lean ====
/-
  The dense layer from 256 to 256 features as the kernel evaluates it: the node axis is cut into 25 blocks of 2000 rows;
  at block t the body multiplies rows 2000·t … 2000·t + 1999 of x by the transposed weight matrix on the matrix unit
  (into a zero accumulator: at the ideal values a plain sum over the 256 input features), adds the bias row, and
  writes the 2000 × 256 block back. The blocks tile the output array, so after the region it holds `dense1` of the
  arrays the region found, whatever those are.
-/
import proofs.«151089_j50611894616713_1_alg».proof.Proof.Spec
import proofs.«151089_j50611894616713_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.Encoder.Dense1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts
open scoped BigOperators

theorem hz : (![0, 0] : Fin 2 → Nat) = fun _ => 0 := funext fun a => by fin_cases a <;> rfl

/-- One entry of the block the body stores: row `j 0` of the x block against row `j 1` of the weight matrix (the
    transpose read back), plus the bias entry of column `j 1`. The changes of float format are the identity on
    extended reals, and the product into the zero accumulator is the plain sum. -/
theorem pay_apply (x0 : FVec Ideal S2000x256 .f32) (x1 : FVec Ideal S256x256 .f32) (x2 : FVec Ideal S1x256 .f32) (j : S2000x256.Idx) :
    k0_pay1 (F := Ideal) x0 x1 x2 j
      = (∑ k : Fin 256, x0 (ix2 (⟨(j 0).val, (j 0).isLt⟩ : Fin 2000) k) * x1 (ix2 (⟨(j 1).val, (j 1).isLt⟩ : Fin 256) k))
        + x2 (ix2 (⟨0, by decide⟩ : Fin 1) (⟨(j 1).val, (j 1).isLt⟩ : Fin 256)) := by
  unfold k0_pay1
  show addf (matmul dot_S2000x256_S256x256_S2000x256_1_0_0_1_n_n none (truncf .bf16 x0 _)
      (transpose S256x256 [1, 0] (truncf .bf16 x1 _) _) (constant S2000x256 .f32 0x00000000#32))
    (broadcastTo S2000x256 (shapeCast S1x256 x2 _) _) j = _
  refine (addf_apply _ _ j).trans ?_
  refine congrArg₂ (· + ·) ?_ ?_
  · refine (Ideal.matmul_constant_zero_apply dot_S2000x256_S256x256_S2000x256_1_0_0_1_n_n none _ _ j).trans ?_
    rw [← Equiv.sum_comp (contrEquiv1 dot_S2000x256_S256x256_S2000x256_1_0_0_1_n_n 256 rfl rfl).symm]
    refine Finset.sum_congr rfl fun k _ => ?_
    have hk := contrEquiv1_symm_val dot_S2000x256_S256x256_S2000x256_1_0_0_1_n_n 256 rfl rfl k
    refine congrArg₂ (· * ·) ?_ ?_
    · refine congrArg x0 (funext fun a => Fin.ext ?_)
      match a with
      | ⟨0, _⟩ =>
        show (dot_S2000x256_S256x256_S2000x256_1_0_0_1_n_n.lhsIdx j _ 0).val = (j 0).val
        unfold DotDims.lhsIdx
        rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
        rfl
      | ⟨1, _⟩ => exact (dot_S2000x256_S256x256_S2000x256_1_0_0_1_n_n.lhsIdx_val_of_single rfl j _).trans hk
    · refine (transpose_apply [1, 0] _ _ _ (ix2 (⟨(j 1).val, (j 1).isLt⟩ : Fin 256) k) (fun b => ?_)).trans rfl
      match b with
      | ⟨0, _⟩ => exact ((dot_S2000x256_S256x256_S2000x256_1_0_0_1_n_n.rhsIdx_val_of_single rfl j _).trans hk).symm
      | ⟨1, _⟩ =>
        show (j 1).val = (dot_S2000x256_S256x256_S2000x256_1_0_0_1_n_n.rhsIdx j _ 1).val
        unfold DotDims.rhsIdx
        rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
        rfl
  · rw [shapeCast_self]
    refine broadcastTo_apply x2 _ j _ (fun a => ?_)
    match a with
    | ⟨0, _⟩ => rfl
    | ⟨1, _⟩ => rfl

/-! ## From blocks to the array -/

variable (V : (c : Dev nD) → (b : Ref sig .tc) → Buf (Elt Ideal) ((c : Thread nD τ).loc b))

/-- The printed index maps, decided once over the 25 grid points: the x window and the output window sit at row block
    `t`, the weight and bias windows always at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x window's block at point `t` is rows 2000·t … 2000·t + 1999 of the array the region found. -/
theorem x_block (c : Dev nD) (t : Fin cfg0.N) (y : S2000x256.Idx) (i : S50000x256.Idx)
    (h0 : (i 0).val = 2000 * t.val + (y 0).val) (h1 : (i 1).val = (y 1).val) :
    (iblk0 V c 0 t : S2000x256.Idx → Ideal .f32) y = (V c main_arg0 : S50000x256.Idx → Ideal .f32) i := by
  obtain ⟨e00, e01, -⟩ := idx_facts t
  unfold iblk0
  rw [View.read_apply]
  show (V c main_arg0 : S50000x256.Idx → Ideal .f32) _ = (V c main_arg0 : S50000x256.Idx → Ideal .f32) _
  congr 1
  funext a
  apply Fin.ext
  match a with
  | ⟨0, _⟩ => show win0_0.index t (0 : Fin 2) * 2000 + 1 * (y 0).val = (i 0).val; rw [e00, h0]; omega
  | ⟨1, _⟩ => show win0_0.index t (1 : Fin 2) * 256 + 1 * (y 1).val = (i 1).val; rw [e01, h1]; omega

/-- The weight window's one block is the whole weight matrix. -/
theorem w_block (c : Dev nD) (t : Fin cfg0.N) (y : S256x256.Idx) :
    (iblk0 V c 1 t : S256x256.Idx → Ideal .f32) y = (V c main_arg4 : S256x256.Idx → Ideal .f32) y := by
  obtain ⟨-, -, e10, e11, -⟩ := idx_facts t
  unfold iblk0
  rw [View.read_apply]
  show (V c main_arg4 : S256x256.Idx → Ideal .f32) _ = (V c main_arg4 : S256x256.Idx → Ideal .f32) _
  congr 1
  funext a
  apply Fin.ext
  match a with
  | ⟨0, _⟩ => show win0_1.index t (0 : Fin 2) * 256 + 1 * (y 0).val = (y 0).val; rw [e10]; omega
  | ⟨1, _⟩ => show win0_1.index t (1 : Fin 2) * 256 + 1 * (y 1).val = (y 1).val; rw [e11]; omega

/-- The bias window's one block is the whole bias row. -/
theorem b_block (c : Dev nD) (t : Fin cfg0.N) (y : S1x256.Idx) :
    (iblk0 V c 2 t : S1x256.Idx → Ideal .f32) y = (V c main_v2 : S1x256.Idx → Ideal .f32) y := by
  obtain ⟨-, -, -, -, e20, e21, -⟩ := idx_facts t
  unfold iblk0
  rw [View.read_apply]
  show (V c main_v2 : S1x256.Idx → Ideal .f32) _ = (V c main_v2 : S1x256.Idx → Ideal .f32) _
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 256 + 1 * (y 1).val = (y 1).val; rw [e21]; omega

/-- One entry of the block point `t` stores is the entry of `dense1` at the same place of the whole array: row
    2000·t + (row inside the block), same column. -/
theorem block_entry (c : Dev nD) (t : Fin cfg0.N) (y : S2000x256.Idx) (i : S50000x256.Idx)
    (h0 : (i 0).val = 2000 * t.val + (y 0).val) (h1 : (i 1).val = (y 1).val) :
    k0_pay1 (F := Ideal) (iblk0 V c 0 t) (iblk0 V c 1 t) (iblk0 V c 2 t) y
      = dense1 (V c main_arg0) (V c main_arg4) (V c main_v2) i := by
  refine (pay_apply (iblk0 V c 0 t) (iblk0 V c 1 t) (iblk0 V c 2 t) y).trans ?_
  unfold dense1
  have hi1 : (⟨(i 1).val, (i 1).isLt⟩ : Fin 256) = ⟨(y 1).val, (y 1).isLt⟩ := Fin.ext h1
  rw [hi1]
  refine congrArg₂ (· + ·) (Finset.sum_congr rfl fun k _ => congrArg₂ (· * ·) ?_ ?_) ?_
  · exact x_block V c t _ _ h0 rfl
  · exact w_block V c t _
  · exact b_block V c t _

/-- What point `t` writes back is block `t` of `dense1` of the arrays the region found. -/
theorem flushed_eq (c : Dev nD) (t : Fin cfg0.N) :
    (dat0 V c).flushed 3 t = ((cfg0.win 3).blk t).view.read (Elt Ideal) (dense1 (V c main_arg0) (V c main_arg4) (V c main_v2)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  obtain ⟨-, -, -, -, -, -, e30, e31⟩ := idx_facts t
  funext j
  have hj0 : ((((cfg0.win 3).blk t).view.emb j) 0).val = 2000 * t.val + (j 0).val := by
    show win0_3.index t (0 : Fin 2) * 2000 + 1 * (j 0).val = _; rw [e30]; omega
  have hj1 : ((((cfg0.win 3).blk t).view.emb j) 1).val = (j 1).val := by
    show win0_3.index t (1 : Fin 2) * 256 + 1 * (j 1).val = _; rw [e31]; omega
  exact block_entry V c t j _ hj0 hj1

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v3).slice (win0_3.rect t)).set ↔ _
  rw [View.set_slice_whole, Rect.mem_set_unit]
  exact Iff.rfl

/-- THE OUTPUT ARRAY after the region: the 25 row blocks tile it (row r lies in block r / 2000), so it holds
    `dense1` of the arrays the region found. -/
theorem final (c : Dev nD) :
    (dat0 V c).arrAt 3 cfg0.N = dense1 (V c main_arg0) (V c main_arg4) (V c main_v2) :=
  (dat0 V c).arrAt_eq_of_cover 3 _ (fun t _ => flushed_eq V c t) fun i => by
    have hi0 : (i 0).val < 50000 := (i 0).isLt
    have hi1 : (i 1).val < 256 := (i 1).isLt
    have hN : cfg0.N = 25 := N_0
    have hlt : (i 0).val / 2000 < cfg0.N := by rw [hN]; omega
    obtain ⟨-, -, -, -, -, -, e30, e31⟩ := idx_facts ⟨(i 0).val / 2000, hlt⟩
    refine ⟨⟨(i 0).val / 2000, hlt⟩, flush0_3 _, ?_⟩
    rw [mem_blk]
    intro a
    match a with
    | ⟨0, _⟩ =>
      show win0_3.index ⟨(i 0).val / 2000, hlt⟩ (0 : Fin 2) * 2000 ≤ (i 0).val ∧ (i 0).val < win0_3.index ⟨(i 0).val / 2000, hlt⟩ (0 : Fin 2) * 2000 + 2000
      rw [e30]; show (i 0).val / 2000 * 2000 ≤ (i 0).val ∧ (i 0).val < (i 0).val / 2000 * 2000 + 2000; omega
    | ⟨1, _⟩ =>
      show win0_3.index ⟨(i 0).val / 2000, hlt⟩ (1 : Fin 2) * 256 ≤ (i 1).val ∧ (i 1).val < win0_3.index ⟨(i 0).val / 2000, hlt⟩ (1 : Fin 2) * 256 + 256
      rw [e31]; omega

end Cert.Encoder.Dense1

end
-- ==== Proof.Dense2.lean ====
/-
  The dense layer from 256 to 128 features as the kernel evaluates it: the node axis is cut into 25 blocks of 2000 rows;
  at block t the body multiplies rows 2000·t … 2000·t + 1999 of x by the transposed weight matrix on the matrix unit
  (into a zero accumulator: at the ideal values a plain sum over the 256 input features), adds the bias row, and
  writes the 2000 × 128 block back. The blocks tile the output array, so after the region it holds `dense2` of the
  arrays the region found, whatever those are.
-/
import proofs.«151089_j50611894616713_1_alg».proof.Proof.Spec
import proofs.«151089_j50611894616713_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.Encoder.Dense2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts
open scoped BigOperators

theorem hz : (![0, 0] : Fin 2 → Nat) = fun _ => 0 := funext fun a => by fin_cases a <;> rfl

/-- One entry of the block the body stores: row `j 0` of the x block against row `j 1` of the weight matrix (the
    transpose read back), plus the bias entry of column `j 1`. The changes of float format are the identity on
    extended reals, and the product into the zero accumulator is the plain sum. -/
theorem pay_apply (x0 : FVec Ideal S2000x256 .f32) (x1 : FVec Ideal S128x256 .f32) (x2 : FVec Ideal S1x128 .f32) (j : S2000x128.Idx) :
    k2_pay1 (F := Ideal) x0 x1 x2 j
      = (∑ k : Fin 256, x0 (ix2 (⟨(j 0).val, (j 0).isLt⟩ : Fin 2000) k) * x1 (ix2 (⟨(j 1).val, (j 1).isLt⟩ : Fin 128) k))
        + x2 (ix2 (⟨0, by decide⟩ : Fin 1) (⟨(j 1).val, (j 1).isLt⟩ : Fin 128)) := by
  unfold k2_pay1
  show addf (matmul dot_S2000x256_S256x128_S2000x128_1_0_0_1_n_n none (truncf .bf16 (shapeCast S2000x256 x0 _) _)
      (transpose S256x128 [1, 0] (truncf .bf16 x1 _) _) (constant S2000x128 .f32 0x00000000#32))
    (broadcastTo S2000x128 (shapeCast S1x128 x2 _) _) j = _
  refine (addf_apply _ _ j).trans ?_
  refine congrArg₂ (· + ·) ?_ ?_
  · refine (Ideal.matmul_constant_zero_apply dot_S2000x256_S256x128_S2000x128_1_0_0_1_n_n none _ _ j).trans ?_
    rw [← Equiv.sum_comp (contrEquiv1 dot_S2000x256_S256x128_S2000x128_1_0_0_1_n_n 256 rfl rfl).symm]
    refine Finset.sum_congr rfl fun k _ => ?_
    have hk := contrEquiv1_symm_val dot_S2000x256_S256x128_S2000x128_1_0_0_1_n_n 256 rfl rfl k
    refine congrArg₂ (· * ·) ?_ ?_
    · rw [shapeCast_self]
      refine congrArg x0 (funext fun a => Fin.ext ?_)
      match a with
      | ⟨0, _⟩ =>
        show (dot_S2000x256_S256x128_S2000x128_1_0_0_1_n_n.lhsIdx j _ 0).val = (j 0).val
        unfold DotDims.lhsIdx
        rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
        rfl
      | ⟨1, _⟩ => exact (dot_S2000x256_S256x128_S2000x128_1_0_0_1_n_n.lhsIdx_val_of_single rfl j _).trans hk
    · refine (transpose_apply [1, 0] _ _ _ (ix2 (⟨(j 1).val, (j 1).isLt⟩ : Fin 128) k) (fun b => ?_)).trans rfl
      match b with
      | ⟨0, _⟩ => exact ((dot_S2000x256_S256x128_S2000x128_1_0_0_1_n_n.rhsIdx_val_of_single rfl j _).trans hk).symm
      | ⟨1, _⟩ =>
        show (j 1).val = (dot_S2000x256_S256x128_S2000x128_1_0_0_1_n_n.rhsIdx j _ 1).val
        unfold DotDims.rhsIdx
        rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
        rfl
  · rw [shapeCast_self]
    refine broadcastTo_apply x2 _ j _ (fun a => ?_)
    match a with
    | ⟨0, _⟩ => rfl
    | ⟨1, _⟩ => rfl

/-! ## From blocks to the array -/

variable (V : (c : Dev nD) → (b : Ref sig .tc) → Buf (Elt Ideal) ((c : Thread nD τ).loc b))

/-- The printed index maps, decided once over the 25 grid points: the x window and the output window sit at row block
    `t`, the weight and bias windows always at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The x window's block at point `t` is rows 2000·t … 2000·t + 1999 of the array the region found. -/
theorem x_block (c : Dev nD) (t : Fin cfg2.N) (y : S2000x256.Idx) (i : S50000x256.Idx)
    (h0 : (i 0).val = 2000 * t.val + (y 0).val) (h1 : (i 1).val = (y 1).val) :
    (iblk2 V c 0 t : S2000x256.Idx → Ideal .f32) y = (V c main_v17 : S50000x256.Idx → Ideal .f32) i := by
  obtain ⟨e00, e01, -⟩ := idx_facts t
  unfold iblk2
  rw [View.read_apply]
  show (V c main_v17 : S50000x256.Idx → Ideal .f32) _ = (V c main_v17 : S50000x256.Idx → Ideal .f32) _
  congr 1
  funext a
  apply Fin.ext
  match a with
  | ⟨0, _⟩ => show win2_0.index t (0 : Fin 2) * 2000 + 1 * (y 0).val = (i 0).val; rw [e00, h0]; omega
  | ⟨1, _⟩ => show win2_0.index t (1 : Fin 2) * 256 + 1 * (y 1).val = (i 1).val; rw [e01, h1]; omega

/-- The weight window's one block is the whole weight matrix. -/
theorem w_block (c : Dev nD) (t : Fin cfg2.N) (y : S128x256.Idx) :
    (iblk2 V c 1 t : S128x256.Idx → Ideal .f32) y = (V c main_arg6 : S128x256.Idx → Ideal .f32) y := by
  obtain ⟨-, -, e10, e11, -⟩ := idx_facts t
  unfold iblk2
  rw [View.read_apply]
  show (V c main_arg6 : S128x256.Idx → Ideal .f32) _ = (V c main_arg6 : S128x256.Idx → Ideal .f32) _
  congr 1
  funext a
  apply Fin.ext
  match a with
  | ⟨0, _⟩ => show win2_1.index t (0 : Fin 2) * 128 + 1 * (y 0).val = (y 0).val; rw [e10]; omega
  | ⟨1, _⟩ => show win2_1.index t (1 : Fin 2) * 256 + 1 * (y 1).val = (y 1).val; rw [e11]; omega

/-- The bias window's one block is the whole bias row. -/
theorem b_block (c : Dev nD) (t : Fin cfg2.N) (y : S1x128.Idx) :
    (iblk2 V c 2 t : S1x128.Idx → Ideal .f32) y = (V c main_v18 : S1x128.Idx → Ideal .f32) y := by
  obtain ⟨-, -, -, -, e20, e21, -⟩ := idx_facts t
  unfold iblk2
  rw [View.read_apply]
  show (V c main_v18 : S1x128.Idx → Ideal .f32) _ = (V c main_v18 : S1x128.Idx → Ideal .f32) _
  congr 1
  funext a
  apply Fin.ext
  match a with
  | ⟨0, _⟩ => show win2_2.index t (0 : Fin 2) * 1 + 1 * (y 0).val = (y 0).val; rw [e20]; omega
  | ⟨1, _⟩ => show win2_2.index t (1 : Fin 2) * 128 + 1 * (y 1).val = (y 1).val; rw [e21]; omega

/-- One entry of the block point `t` stores is the entry of `dense2` at the same place of the whole array: row
    2000·t + (row inside the block), same column. -/
theorem block_entry (c : Dev nD) (t : Fin cfg2.N) (y : S2000x128.Idx) (i : S50000x128.Idx)
    (h0 : (i 0).val = 2000 * t.val + (y 0).val) (h1 : (i 1).val = (y 1).val) :
    k2_pay1 (F := Ideal) (iblk2 V c 0 t) (iblk2 V c 1 t) (iblk2 V c 2 t) y
      = dense2 (V c main_v17) (V c main_arg6) (V c main_v18) i := by
  refine (pay_apply (iblk2 V c 0 t) (iblk2 V c 1 t) (iblk2 V c 2 t) y).trans ?_
  unfold dense2
  have hi1 : (⟨(i 1).val, (i 1).isLt⟩ : Fin 128) = ⟨(y 1).val, (y 1).isLt⟩ := Fin.ext h1
  rw [hi1]
  refine congrArg₂ (· + ·) (Finset.sum_congr rfl fun k _ => congrArg₂ (· * ·) ?_ ?_) ?_
  · exact x_block V c t _ _ h0 rfl
  · exact w_block V c t _
  · exact b_block V c t _

/-- What point `t` writes back is block `t` of `dense2` of the arrays the region found. -/
theorem flushed_eq (c : Dev nD) (t : Fin cfg2.N) :
    (dat2 V c).flushed 3 t = ((cfg2.win 3).blk t).view.read (Elt Ideal) (dense2 (V c main_v17) (V c main_arg6) (V c main_v18)) := by
  show (cfg2.win 3).cut (grid2.coords t) ((dat2 V c).after 3 t) = _
  rw [after2_3]
  unfold out2_3
  rw [View.canon_unit_zero hz]
  simp only [View.ld_unit_zero (S := S2000x256) hz, View.ld_unit_zero (S := S128x256) hz, View.ld_unit_zero (S := S1x128) hz]
  obtain ⟨-, -, -, -, -, -, e30, e31⟩ := idx_facts t
  funext j
  have hj0 : ((((cfg2.win 3).blk t).view.emb j) 0).val = 2000 * t.val + (j 0).val := by
    show win2_3.index t (0 : Fin 2) * 2000 + 1 * (j 0).val = _; rw [e30]; omega
  have hj1 : ((((cfg2.win 3).blk t).view.emb j) 1).val = (j 1).val := by
    show win2_3.index t (1 : Fin 2) * 128 + 1 * (j 1).val = _; rw [e31]; omega
  exact block_entry V c t j _ hj0 hj1

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v19).slice (win2_3.rect t)).set ↔ _
  rw [View.set_slice_whole, Rect.mem_set_unit]
  exact Iff.rfl

/-- THE OUTPUT ARRAY after the region: the 25 row blocks tile it (row r lies in block r / 2000), so it holds
    `dense2` of the arrays the region found. -/
theorem final (c : Dev nD) :
    (dat2 V c).arrAt 3 cfg2.N = dense2 (V c main_v17) (V c main_arg6) (V c main_v18) :=
  (dat2 V c).arrAt_eq_of_cover 3 _ (fun t _ => flushed_eq V c t) fun i => by
    have hi0 : (i 0).val < 50000 := (i 0).isLt
    have hi1 : (i 1).val < 128 := (i 1).isLt
    have hN : cfg2.N = 25 := N_2
    have hlt : (i 0).val / 2000 < cfg2.N := by rw [hN]; omega
    obtain ⟨-, -, -, -, -, -, e30, e31⟩ := idx_facts ⟨(i 0).val / 2000, hlt⟩
    refine ⟨⟨(i 0).val / 2000, hlt⟩, flush2_3 _, ?_⟩
    rw [mem_blk]
    intro a
    match a with
    | ⟨0, _⟩ =>
      show win2_3.index ⟨(i 0).val / 2000, hlt⟩ (0 : Fin 2) * 2000 ≤ (i 0).val ∧ (i 0).val < win2_3.index ⟨(i 0).val / 2000, hlt⟩ (0 : Fin 2) * 2000 + 2000
      rw [e30]; show (i 0).val / 2000 * 2000 ≤ (i 0).val ∧ (i 0).val < (i 0).val / 2000 * 2000 + 2000; omega
    | ⟨1, _⟩ =>
      show win2_3.index ⟨(i 0).val / 2000, hlt⟩ (1 : Fin 2) * 128 ≤ (i 1).val ∧ (i 1).val < win2_3.index ⟨(i 0).val / 2000, hlt⟩ (1 : Fin 2) * 128 + 128
      rw [e31]; omega

end Cert.Encoder.Dense2

end
-- ==== Proof.Dense3.lean ====
/-
  The dense layer from 128 to 64 features as the kernel evaluates it: the node axis is cut into 25 blocks of 2000 rows;
  at block t the body multiplies rows 2000·t … 2000·t + 1999 of x by the transposed weight matrix on the matrix unit
  (into a zero accumulator: at the ideal values a plain sum over the 128 input features), adds the bias row, and
  writes the 2000 × 64 block back. The blocks tile the output array, so after the region it holds `dense3` of the
  arrays the region found, whatever those are.
-/
import proofs.«151089_j50611894616713_1_alg».proof.Proof.Spec
import proofs.«151089_j50611894616713_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.Encoder.Dense3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts
open scoped BigOperators

theorem hz : (![0, 0] : Fin 2 → Nat) = fun _ => 0 := funext fun a => by fin_cases a <;> rfl

/-- One entry of the block the body stores: row `j 0` of the x block against row `j 1` of the weight matrix (the
    transpose read back), plus the bias entry of column `j 1`. The changes of float format are the identity on
    extended reals, and the product into the zero accumulator is the plain sum. -/
theorem pay_apply (x0 : FVec Ideal S2000x128 .f32) (x1 : FVec Ideal S64x128 .f32) (x2 : FVec Ideal S1x64 .f32) (j : S2000x64.Idx) :
    k4_pay1 (F := Ideal) x0 x1 x2 j
      = (∑ k : Fin 128, x0 (ix2 (⟨(j 0).val, (j 0).isLt⟩ : Fin 2000) k) * x1 (ix2 (⟨(j 1).val, (j 1).isLt⟩ : Fin 64) k))
        + x2 (ix2 (⟨0, by decide⟩ : Fin 1) (⟨(j 1).val, (j 1).isLt⟩ : Fin 64)) := by
  unfold k4_pay1
  show addf (matmul dot_S2000x128_S128x64_S2000x64_1_0_0_1_n_n none (truncf .bf16 (shapeCast S2000x128 x0 _) _)
      (transpose S128x64 [1, 0] (truncf .bf16 x1 _) _) (constant S2000x64 .f32 0x00000000#32))
    (broadcastTo S2000x64 (shapeCast S1x64 x2 _) _) j = _
  refine (addf_apply _ _ j).trans ?_
  refine congrArg₂ (· + ·) ?_ ?_
  · refine (Ideal.matmul_constant_zero_apply dot_S2000x128_S128x64_S2000x64_1_0_0_1_n_n none _ _ j).trans ?_
    rw [← Equiv.sum_comp (contrEquiv1 dot_S2000x128_S128x64_S2000x64_1_0_0_1_n_n 128 rfl rfl).symm]
    refine Finset.sum_congr rfl fun k _ => ?_
    have hk := contrEquiv1_symm_val dot_S2000x128_S128x64_S2000x64_1_0_0_1_n_n 128 rfl rfl k
    refine congrArg₂ (· * ·) ?_ ?_
    · rw [shapeCast_self]
      refine congrArg x0 (funext fun a => Fin.ext ?_)
      match a with
      | ⟨0, _⟩ =>
        show (dot_S2000x128_S128x64_S2000x64_1_0_0_1_n_n.lhsIdx j _ 0).val = (j 0).val
        unfold DotDims.lhsIdx
        rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
        rfl
      | ⟨1, _⟩ => exact (dot_S2000x128_S128x64_S2000x64_1_0_0_1_n_n.lhsIdx_val_of_single rfl j _).trans hk
    · refine (transpose_apply [1, 0] _ _ _ (ix2 (⟨(j 1).val, (j 1).isLt⟩ : Fin 64) k) (fun b => ?_)).trans rfl
      match b with
      | ⟨0, _⟩ => exact ((dot_S2000x128_S128x64_S2000x64_1_0_0_1_n_n.rhsIdx_val_of_single rfl j _).trans hk).symm
      | ⟨1, _⟩ =>
        show (j 1).val = (dot_S2000x128_S128x64_S2000x64_1_0_0_1_n_n.rhsIdx j _ 1).val
        unfold DotDims.rhsIdx
        rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
        rfl
  · rw [shapeCast_self]
    refine broadcastTo_apply x2 _ j _ (fun a => ?_)
    match a with
    | ⟨0, _⟩ => rfl
    | ⟨1, _⟩ => rfl

/-! ## From blocks to the array -/

variable (V : (c : Dev nD) → (b : Ref sig .tc) → Buf (Elt Ideal) ((c : Thread nD τ).loc b))

/-- The printed index maps, decided once over the 25 grid points: the x window and the output window sit at row block
    `t`, the weight and bias windows always at their one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The x window's block at point `t` is rows 2000·t … 2000·t + 1999 of the array the region found. -/
theorem x_block (c : Dev nD) (t : Fin cfg4.N) (y : S2000x128.Idx) (i : S50000x128.Idx)
    (h0 : (i 0).val = 2000 * t.val + (y 0).val) (h1 : (i 1).val = (y 1).val) :
    (iblk4 V c 0 t : S2000x128.Idx → Ideal .f32) y = (V c main_v33 : S50000x128.Idx → Ideal .f32) i := by
  obtain ⟨e00, e01, -⟩ := idx_facts t
  unfold iblk4
  rw [View.read_apply]
  show (V c main_v33 : S50000x128.Idx → Ideal .f32) _ = (V c main_v33 : S50000x128.Idx → Ideal .f32) _
  congr 1
  funext a
  apply Fin.ext
  match a with
  | ⟨0, _⟩ => show win4_0.index t (0 : Fin 2) * 2000 + 1 * (y 0).val = (i 0).val; rw [e00, h0]; omega
  | ⟨1, _⟩ => show win4_0.index t (1 : Fin 2) * 128 + 1 * (y 1).val = (i 1).val; rw [e01, h1]; omega

/-- The weight window's one block is the whole weight matrix. -/
theorem w_block (c : Dev nD) (t : Fin cfg4.N) (y : S64x128.Idx) :
    (iblk4 V c 1 t : S64x128.Idx → Ideal .f32) y = (V c main_arg8 : S64x128.Idx → Ideal .f32) y := by
  obtain ⟨-, -, e10, e11, -⟩ := idx_facts t
  unfold iblk4
  rw [View.read_apply]
  show (V c main_arg8 : S64x128.Idx → Ideal .f32) _ = (V c main_arg8 : S64x128.Idx → Ideal .f32) _
  congr 1
  funext a
  apply Fin.ext
  match a with
  | ⟨0, _⟩ => show win4_1.index t (0 : Fin 2) * 64 + 1 * (y 0).val = (y 0).val; rw [e10]; omega
  | ⟨1, _⟩ => show win4_1.index t (1 : Fin 2) * 128 + 1 * (y 1).val = (y 1).val; rw [e11]; omega

/-- The bias window's one block is the whole bias row. -/
theorem b_block (c : Dev nD) (t : Fin cfg4.N) (y : S1x64.Idx) :
    (iblk4 V c 2 t : S1x64.Idx → Ideal .f32) y = (V c main_v34 : S1x64.Idx → Ideal .f32) y := by
  obtain ⟨-, -, -, -, e20, e21, -⟩ := idx_facts t
  unfold iblk4
  rw [View.read_apply]
  show (V c main_v34 : S1x64.Idx → Ideal .f32) _ = (V c main_v34 : S1x64.Idx → Ideal .f32) _
  congr 1
  funext a
  apply Fin.ext
  match a with
  | ⟨0, _⟩ => show win4_2.index t (0 : Fin 2) * 1 + 1 * (y 0).val = (y 0).val; rw [e20]; omega
  | ⟨1, _⟩ => show win4_2.index t (1 : Fin 2) * 64 + 1 * (y 1).val = (y 1).val; rw [e21]; omega

/-- One entry of the block point `t` stores is the entry of `dense3` at the same place of the whole array: row
    2000·t + (row inside the block), same column. -/
theorem block_entry (c : Dev nD) (t : Fin cfg4.N) (y : S2000x64.Idx) (i : S50000x64.Idx)
    (h0 : (i 0).val = 2000 * t.val + (y 0).val) (h1 : (i 1).val = (y 1).val) :
    k4_pay1 (F := Ideal) (iblk4 V c 0 t) (iblk4 V c 1 t) (iblk4 V c 2 t) y
      = dense3 (V c main_v33) (V c main_arg8) (V c main_v34) i := by
  refine (pay_apply (iblk4 V c 0 t) (iblk4 V c 1 t) (iblk4 V c 2 t) y).trans ?_
  unfold dense3
  have hi1 : (⟨(i 1).val, (i 1).isLt⟩ : Fin 64) = ⟨(y 1).val, (y 1).isLt⟩ := Fin.ext h1
  rw [hi1]
  refine congrArg₂ (· + ·) (Finset.sum_congr rfl fun k _ => congrArg₂ (· * ·) ?_ ?_) ?_
  · exact x_block V c t _ _ h0 rfl
  · exact w_block V c t _
  · exact b_block V c t _

/-- What point `t` writes back is block `t` of `dense3` of the arrays the region found. -/
theorem flushed_eq (c : Dev nD) (t : Fin cfg4.N) :
    (dat4 V c).flushed 3 t = ((cfg4.win 3).blk t).view.read (Elt Ideal) (dense3 (V c main_v33) (V c main_arg8) (V c main_v34)) := by
  show (cfg4.win 3).cut (grid4.coords t) ((dat4 V c).after 3 t) = _
  rw [after4_3]
  unfold out4_3
  rw [View.canon_unit_zero hz]
  simp only [View.ld_unit_zero (S := S2000x128) hz, View.ld_unit_zero (S := S64x128) hz, View.ld_unit_zero (S := S1x64) hz]
  obtain ⟨-, -, -, -, -, -, e30, e31⟩ := idx_facts t
  funext j
  have hj0 : ((((cfg4.win 3).blk t).view.emb j) 0).val = 2000 * t.val + (j 0).val := by
    show win4_3.index t (0 : Fin 2) * 2000 + 1 * (j 0).val = _; rw [e30]; omega
  have hj1 : ((((cfg4.win 3).blk t).view.emb j) 1).val = (j 1).val := by
    show win4_3.index t (1 : Fin 2) * 64 + 1 * (j 1).val = _; rw [e31]; omega
  exact block_entry V c t j _ hj0 hj1

/-- An index of the output array is in point `t`'s block iff each coordinate is in the block's range on its axis. -/
theorem mem_blk (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v35).slice (win4_3.rect t)).set ↔ _
  rw [View.set_slice_whole, Rect.mem_set_unit]
  exact Iff.rfl

/-- THE OUTPUT ARRAY after the region: the 25 row blocks tile it (row r lies in block r / 2000), so it holds
    `dense3` of the arrays the region found. -/
theorem final (c : Dev nD) :
    (dat4 V c).arrAt 3 cfg4.N = dense3 (V c main_v33) (V c main_arg8) (V c main_v34) :=
  (dat4 V c).arrAt_eq_of_cover 3 _ (fun t _ => flushed_eq V c t) fun i => by
    have hi0 : (i 0).val < 50000 := (i 0).isLt
    have hi1 : (i 1).val < 64 := (i 1).isLt
    have hN : cfg4.N = 25 := N_4
    have hlt : (i 0).val / 2000 < cfg4.N := by rw [hN]; omega
    obtain ⟨-, -, -, -, -, -, e30, e31⟩ := idx_facts ⟨(i 0).val / 2000, hlt⟩
    refine ⟨⟨(i 0).val / 2000, hlt⟩, flush4_3 _, ?_⟩
    rw [mem_blk]
    intro a
    match a with
    | ⟨0, _⟩ =>
      show win4_3.index ⟨(i 0).val / 2000, hlt⟩ (0 : Fin 2) * 2000 ≤ (i 0).val ∧ (i 0).val < win4_3.index ⟨(i 0).val / 2000, hlt⟩ (0 : Fin 2) * 2000 + 2000
      rw [e30]; show (i 0).val / 2000 * 2000 ≤ (i 0).val ∧ (i 0).val < (i 0).val / 2000 * 2000 + 2000; omega
    | ⟨1, _⟩ =>
      show win4_3.index ⟨(i 0).val / 2000, hlt⟩ (1 : Fin 2) * 64 ≤ (i 1).val ∧ (i 1).val < win4_3.index ⟨(i 0).val / 2000, hlt⟩ (1 : Fin 2) * 64 + 64
      rw [e31]; omega

end Cert.Encoder.Dense3

end
-- ==== Proof.Act1.lean ====
/-
  The activation on a feature width of 256 as the kernel evaluates it: the node axis is cut into 25 blocks of 2000 rows;
  at block t the body reads the same rows of the pre-activation array and of the float keep mask, applies the leaky
  rectifier, the rescale by 1.25 and the product with the mask entry by entry, and writes the 2000 × 256 block back. The
  blocks tile the output array, so after the region it holds `act1` of the arrays the region found.
-/
import proofs.«151089_j50611894616713_1_alg».proof.Proof.Spec
import proofs.«151089_j50611894616713_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.Encoder.Act1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

theorem hz : (![0, 0] : Fin 2 → Nat) = fun _ => 0 := funext fun a => by fin_cases a <;> rfl

/-- One entry of the block the body stores: the scalar activation of the two loaded entries at the same place (the
    two shape casts in the body are casts to the same shape). -/
theorem pay_apply (x0 x1 : FVec Ideal S2000x256 .f32) (j : S2000x256.Idx) :
    k1_pay1 (F := Ideal) x0 x1 j = actS (x0 j) (x1 j) := by
  unfold k1_pay1
  rw [shapeCast_self x0, shapeCast_self x1]
  rfl

/-! ## From blocks to the array -/

variable (V : (c : Dev nD) → (b : Ref sig .tc) → Buf (Elt Ideal) ((c : Thread nD τ).loc b))

/-- The printed index maps, decided once over the 25 grid points: all three windows sit at row block `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The pre-activation window's block at point `t` is rows 2000·t … 2000·t + 1999 of the array the region found. -/
theorem h_block (c : Dev nD) (t : Fin cfg1.N) (y : S2000x256.Idx) (i : S50000x256.Idx)
    (h0 : (i 0).val = 2000 * t.val + (y 0).val) (h1 : (i 1).val = (y 1).val) :
    (iblk1 V c 0 t : S2000x256.Idx → Ideal .f32) y = (V c main_v16 : S50000x256.Idx → Ideal .f32) i := by
  obtain ⟨e00, e01, e10, e11, -⟩ := idx_facts t
  unfold iblk1
  rw [View.read_apply]
  show (V c main_v16 : S50000x256.Idx → Ideal .f32) _ = (V c main_v16 : S50000x256.Idx → Ideal .f32) _
  congr 1
  funext a
  apply Fin.ext
  match a with
  | ⟨0, _⟩ => show win1_0.index t (0 : Fin 2) * 2000 + 1 * (y 0).val = (i 0).val; rw [e00, h0]; omega
  | ⟨1, _⟩ => show win1_0.index t (1 : Fin 2) * 256 + 1 * (y 1).val = (i 1).val; rw [e01, h1]; omega

/-- The mask window's block at point `t` is the same rows of the float mask. -/
theorem m_block (c : Dev nD) (t : Fin cfg1.N) (y : S2000x256.Idx) (i : S50000x256.Idx)
    (h0 : (i 0).val = 2000 * t.val + (y 0).val) (h1 : (i 1).val = (y 1).val) :
    (iblk1 V c 1 t : S2000x256.Idx → Ideal .f32) y = (V c main_v0 : S50000x256.Idx → Ideal .f32) i := by
  obtain ⟨e00, e01, e10, e11, -⟩ := idx_facts t
  unfold iblk1
  rw [View.read_apply]
  show (V c main_v0 : S50000x256.Idx → Ideal .f32) _ = (V c main_v0 : S50000x256.Idx → Ideal .f32) _
  congr 1
  funext a
  apply Fin.ext
  match a with
  | ⟨0, _⟩ => show win1_1.index t (0 : Fin 2) * 2000 + 1 * (y 0).val = (i 0).val; rw [e10, h0]; omega
  | ⟨1, _⟩ => show win1_1.index t (1 : Fin 2) * 256 + 1 * (y 1).val = (i 1).val; rw [e11, h1]; omega

/-- One entry of the block point `t` stores is the entry of `act1` at the same place of the whole array. -/
theorem block_entry (c : Dev nD) (t : Fin cfg1.N) (y : S2000x256.Idx) (i : S50000x256.Idx)
    (h0 : (i 0).val = 2000 * t.val + (y 0).val) (h1 : (i 1).val = (y 1).val) :
    k1_pay1 (F := Ideal) (iblk1 V c 0 t) (iblk1 V c 1 t) y = act1 (V c main_v16) (V c main_v0) i := by
  refine (pay_apply (iblk1 V c 0 t) (iblk1 V c 1 t) y).trans ?_
  unfold act1
  exact congrArg₂ actS (h_block V c t y i h0 h1) (m_block V c t y i h0 h1)

/-- What point `t` writes back is block `t` of `act1` of the arrays the region found. -/
theorem flushed_eq (c : Dev nD) (t : Fin cfg1.N) :
    (dat1 V c).flushed 2 t = ((cfg1.win 2).blk t).view.read (Elt Ideal) (act1 (V c main_v16) (V c main_v0)) := by
  show (cfg1.win 2).cut (grid1.coords t) ((dat1 V c).after 2 t) = _
  rw [after1_2]
  unfold out1_2
  rw [View.canon_unit_zero hz]
  simp only [View.ld_unit_zero (S := S2000x256) hz]
  obtain ⟨-, -, -, -, e20, e21⟩ := idx_facts t
  funext j
  have hj0 : ((((cfg1.win 2).blk t).view.emb j) 0).val = 2000 * t.val + (j 0).val := by
    show win1_2.index t (0 : Fin 2) * 2000 + 1 * (j 0).val = _; rw [e20]; omega
  have hj1 : ((((cfg1.win 2).blk t).view.emb j) 1).val = (j 1).val := by
    show win1_2.index t (1 : Fin 2) * 256 + 1 * (j 1).val = _; rw [e21]; omega
  exact block_entry V c t j _ hj0 hj1

/-- An index of the output array is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v17).slice (win1_2.rect t)).set ↔ _
  rw [View.set_slice_whole, Rect.mem_set_unit]
  exact Iff.rfl

/-- THE OUTPUT ARRAY after the region: the 25 row blocks tile it (row r lies in block r / 2000), so it holds
    `act1` of the arrays the region found. -/
theorem final (c : Dev nD) :
    (dat1 V c).arrAt 2 cfg1.N = act1 (V c main_v16) (V c main_v0) :=
  (dat1 V c).arrAt_eq_of_cover 2 _ (fun t _ => flushed_eq V c t) fun i => by
    have hi0 : (i 0).val < 50000 := (i 0).isLt
    have hi1 : (i 1).val < 256 := (i 1).isLt
    have hN : cfg1.N = 25 := N_1
    have hlt : (i 0).val / 2000 < cfg1.N := by rw [hN]; omega
    obtain ⟨-, -, -, -, e20, e21⟩ := idx_facts ⟨(i 0).val / 2000, hlt⟩
    refine ⟨⟨(i 0).val / 2000, hlt⟩, flush1_2 _, ?_⟩
    rw [mem_blk]
    intro a
    match a with
    | ⟨0, _⟩ =>
      show win1_2.index ⟨(i 0).val / 2000, hlt⟩ (0 : Fin 2) * 2000 ≤ (i 0).val ∧ (i 0).val < win1_2.index ⟨(i 0).val / 2000, hlt⟩ (0 : Fin 2) * 2000 + 2000
      rw [e20]; show (i 0).val / 2000 * 2000 ≤ (i 0).val ∧ (i 0).val < (i 0).val / 2000 * 2000 + 2000; omega
    | ⟨1, _⟩ =>
      show win1_2.index ⟨(i 0).val / 2000, hlt⟩ (1 : Fin 2) * 256 ≤ (i 1).val ∧ (i 1).val < win1_2.index ⟨(i 0).val / 2000, hlt⟩ (1 : Fin 2) * 256 + 256
      rw [e21]; omega

end Cert.Encoder.Act1

end
-- ==== Proof.Act2.lean ====
/-
  The activation on a feature width of 128 as the kernel evaluates it: the node axis is cut into 25 blocks of 2000 rows;
  at block t the body reads the same rows of the pre-activation array and of the float keep mask, applies the leaky
  rectifier, the rescale by 1.25 and the product with the mask entry by entry, and writes the 2000 × 128 block back. The
  blocks tile the output array, so after the region it holds `act2` of the arrays the region found.
-/
import proofs.«151089_j50611894616713_1_alg».proof.Proof.Spec
import proofs.«151089_j50611894616713_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.Encoder.Act2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts

theorem hz : (![0, 0] : Fin 2 → Nat) = fun _ => 0 := funext fun a => by fin_cases a <;> rfl

/-- One entry of the block the body stores: the scalar activation of the two loaded entries at the same place (the
    two shape casts in the body are casts to the same shape). -/
theorem pay_apply (x0 x1 : FVec Ideal S2000x128 .f32) (j : S2000x128.Idx) :
    k3_pay1 (F := Ideal) x0 x1 j = actS (x0 j) (x1 j) := by
  unfold k3_pay1
  rw [shapeCast_self x0, shapeCast_self x1]
  rfl

/-! ## From blocks to the array -/

variable (V : (c : Dev nD) → (b : Ref sig .tc) → Buf (Elt Ideal) ((c : Thread nD τ).loc b))

/-- The printed index maps, decided once over the 25 grid points: all three windows sit at row block `t`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The pre-activation window's block at point `t` is rows 2000·t … 2000·t + 1999 of the array the region found. -/
theorem h_block (c : Dev nD) (t : Fin cfg3.N) (y : S2000x128.Idx) (i : S50000x128.Idx)
    (h0 : (i 0).val = 2000 * t.val + (y 0).val) (h1 : (i 1).val = (y 1).val) :
    (iblk3 V c 0 t : S2000x128.Idx → Ideal .f32) y = (V c main_v32 : S50000x128.Idx → Ideal .f32) i := by
  obtain ⟨e00, e01, e10, e11, -⟩ := idx_facts t
  unfold iblk3
  rw [View.read_apply]
  show (V c main_v32 : S50000x128.Idx → Ideal .f32) _ = (V c main_v32 : S50000x128.Idx → Ideal .f32) _
  congr 1
  funext a
  apply Fin.ext
  match a with
  | ⟨0, _⟩ => show win3_0.index t (0 : Fin 2) * 2000 + 1 * (y 0).val = (i 0).val; rw [e00, h0]; omega
  | ⟨1, _⟩ => show win3_0.index t (1 : Fin 2) * 128 + 1 * (y 1).val = (i 1).val; rw [e01, h1]; omega

/-- The mask window's block at point `t` is the same rows of the float mask. -/
theorem m_block (c : Dev nD) (t : Fin cfg3.N) (y : S2000x128.Idx) (i : S50000x128.Idx)
    (h0 : (i 0).val = 2000 * t.val + (y 0).val) (h1 : (i 1).val = (y 1).val) :
    (iblk3 V c 1 t : S2000x128.Idx → Ideal .f32) y = (V c main_v1 : S50000x128.Idx → Ideal .f32) i := by
  obtain ⟨e00, e01, e10, e11, -⟩ := idx_facts t
  unfold iblk3
  rw [View.read_apply]
  show (V c main_v1 : S50000x128.Idx → Ideal .f32) _ = (V c main_v1 : S50000x128.Idx → Ideal .f32) _
  congr 1
  funext a
  apply Fin.ext
  match a with
  | ⟨0, _⟩ => show win3_1.index t (0 : Fin 2) * 2000 + 1 * (y 0).val = (i 0).val; rw [e10, h0]; omega
  | ⟨1, _⟩ => show win3_1.index t (1 : Fin 2) * 128 + 1 * (y 1).val = (i 1).val; rw [e11, h1]; omega

/-- One entry of the block point `t` stores is the entry of `act2` at the same place of the whole array. -/
theorem block_entry (c : Dev nD) (t : Fin cfg3.N) (y : S2000x128.Idx) (i : S50000x128.Idx)
    (h0 : (i 0).val = 2000 * t.val + (y 0).val) (h1 : (i 1).val = (y 1).val) :
    k3_pay1 (F := Ideal) (iblk3 V c 0 t) (iblk3 V c 1 t) y = act2 (V c main_v32) (V c main_v1) i := by
  refine (pay_apply (iblk3 V c 0 t) (iblk3 V c 1 t) y).trans ?_
  unfold act2
  exact congrArg₂ actS (h_block V c t y i h0 h1) (m_block V c t y i h0 h1)

/-- What point `t` writes back is block `t` of `act2` of the arrays the region found. -/
theorem flushed_eq (c : Dev nD) (t : Fin cfg3.N) :
    (dat3 V c).flushed 2 t = ((cfg3.win 2).blk t).view.read (Elt Ideal) (act2 (V c main_v32) (V c main_v1)) := by
  show (cfg3.win 2).cut (grid3.coords t) ((dat3 V c).after 2 t) = _
  rw [after3_2]
  unfold out3_2
  rw [View.canon_unit_zero hz]
  simp only [View.ld_unit_zero (S := S2000x128) hz]
  obtain ⟨-, -, -, -, e20, e21⟩ := idx_facts t
  funext j
  have hj0 : ((((cfg3.win 2).blk t).view.emb j) 0).val = 2000 * t.val + (j 0).val := by
    show win3_2.index t (0 : Fin 2) * 2000 + 1 * (j 0).val = _; rw [e20]; omega
  have hj1 : ((((cfg3.win 2).blk t).view.emb j) 1).val = (j 1).val := by
    show win3_2.index t (1 : Fin 2) * 128 + 1 * (j 1).val = _; rw [e21]; omega
  exact block_entry V c t j _ hj0 hj1

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v33).slice (win3_2.rect t)).set ↔ _
  rw [View.set_slice_whole, Rect.mem_set_unit]
  exact Iff.rfl

/-- THE OUTPUT ARRAY after the region: the 25 row blocks tile it (row r lies in block r / 2000), so it holds
    `act2` of the arrays the region found. -/
theorem final (c : Dev nD) :
    (dat3 V c).arrAt 2 cfg3.N = act2 (V c main_v32) (V c main_v1) :=
  (dat3 V c).arrAt_eq_of_cover 2 _ (fun t _ => flushed_eq V c t) fun i => by
    have hi0 : (i 0).val < 50000 := (i 0).isLt
    have hi1 : (i 1).val < 128 := (i 1).isLt
    have hN : cfg3.N = 25 := N_3
    have hlt : (i 0).val / 2000 < cfg3.N := by rw [hN]; omega
    obtain ⟨-, -, -, -, e20, e21⟩ := idx_facts ⟨(i 0).val / 2000, hlt⟩
    refine ⟨⟨(i 0).val / 2000, hlt⟩, flush3_2 _, ?_⟩
    rw [mem_blk]
    intro a
    match a with
    | ⟨0, _⟩ =>
      show win3_2.index ⟨(i 0).val / 2000, hlt⟩ (0 : Fin 2) * 2000 ≤ (i 0).val ∧ (i 0).val < win3_2.index ⟨(i 0).val / 2000, hlt⟩ (0 : Fin 2) * 2000 + 2000
      rw [e20]; show (i 0).val / 2000 * 2000 ≤ (i 0).val ∧ (i 0).val < (i 0).val / 2000 * 2000 + 2000; omega
    | ⟨1, _⟩ =>
      show win3_2.index ⟨(i 0).val / 2000, hlt⟩ (1 : Fin 2) * 128 ≤ (i 1).val ∧ (i 1).val < win3_2.index ⟨(i 0).val / 2000, hlt⟩ (1 : Fin 2) * 128 + 128
      rw [e21]; omega

end Cert.Encoder.Act2

end
-- ==== Proof.Stretch.lean ====
/-
  The three long host stretches of the kernel's program, each read at the one buffer that matters: whatever the
  buffers hold when the stretch starts, the stretch leaves in its last result buffer the sparse adjacency product of
  the dense layer's output array with the three edge arrays.
-/
import proofs.«151089_j50611894616713_1_alg».proof.Proof.Spec
import proofs.«151089_j50611894616713_1_alg».proof.Proof.Gen.KernelIdeal.Launch
import Idealize.ShloMosaic.Lib.StableHlo.Run

set_option maxRecDepth 16384

noncomputable section

namespace Cert.Encoder.Stretch

open Idealize.ShloMosaic Idealize.ShloMosaic.TcCoe Idealize.SL.Sem Idealize.ShloMosaic.StableHlo
open Cert.KernelIdeal Cert.KernelIdeal.Gen

variable (Wp : Valuation τ sig (Elt Ideal))

set_option maxHeartbeats 4000000 in
/-- The stretch between regions 0 and 1. -/
theorem after1 : StableHlo.after (hostOps1 (F := Ideal)) Wp (Proc.devRef .tc main_v16)
    = spmm1 (Wp (Proc.devRef .tc main_v3)) (Wp (Proc.devRef .tc main_arg1)) (Wp (Proc.devRef .tc main_arg2)) (Wp (Proc.devRef .tc main_arg3)) := by
  dsimp only [hostOps1]
  after_results_simp
  rfl

set_option maxHeartbeats 4000000 in
/-- The stretch between regions 2 and 3. -/
theorem after3 : StableHlo.after (hostOps3 (F := Ideal)) Wp (Proc.devRef .tc main_v32)
    = spmm2 (Wp (Proc.devRef .tc main_v19)) (Wp (Proc.devRef .tc main_arg1)) (Wp (Proc.devRef .tc main_arg2)) (Wp (Proc.devRef .tc main_arg3)) := by
  dsimp only [hostOps3]
  after_results_simp
  rfl

set_option maxHeartbeats 4000000 in
/-- The stretch after region 4. -/
theorem after5 : StableHlo.after (hostOps5 (F := Ideal)) Wp (Proc.devRef .tc main_v48)
    = spmm3 (Wp (Proc.devRef .tc main_v35)) (Wp (Proc.devRef .tc main_arg1)) (Wp (Proc.devRef .tc main_arg2)) (Wp (Proc.devRef .tc main_arg3)) := by
  dsimp only [hostOps5]
  after_results_simp
  rfl

end Cert.Encoder.Stretch

end
-- ==== Proof.KernelValue.lean ====
/-
  The kernel program's result, read back through its eleven segments. Between the regions the buffers are carried by
  the host stretches (each rewrites the buffers its operations write and leaves the rest) and by the regions (each
  rewrites its output array and leaves the rest); an argument array is written by nobody, so at every boundary it still
  holds its launch contents. Reading the result buffer back through this fold, stage by stage, gives the encoder
  `enc` of the twelve arguments.
-/
import proofs.«151089_j50611894616713_1_alg».proof.Proof.Encoder
import proofs.«151089_j50611894616713_1_alg».proof.Proof.Dense1
import proofs.«151089_j50611894616713_1_alg».proof.Proof.Dense2
import proofs.«151089_j50611894616713_1_alg».proof.Proof.Dense3
import proofs.«151089_j50611894616713_1_alg».proof.Proof.Act1
import proofs.«151089_j50611894616713_1_alg».proof.Proof.Act2
import proofs.«151089_j50611894616713_1_alg».proof.Proof.Stretch
import Idealize.ShloMosaic.Lib.StableHlo.Run

set_option maxRecDepth 16384

noncomputable section

namespace Cert.Encoder.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- One host stretch read at one buffer: the stretch's operations unfolded, each operation's result taken at its own
    buffer and passed over at every other. -/
macro "host_step" : tactic =>
  `(tactic| (dsimp only [W1, W3, W5, W7, W9, W11, hostOps0, hostOps1, hostOps2, hostOps3, hostOps4, hostOps5]; after_results))

/-! ## The arguments at the boundaries where they are read -/

/-- The node features as region 0 finds them. -/
theorem x_at1 : W1 m ρ c (Proc.devRef .tc main_arg0) = m ((c : Thread nD τ).loc main_arg0) :=
  (by host_step : W1 m ρ c (Proc.devRef .tc main_arg0) = W0 m ρ c (Proc.devRef .tc main_arg0)).trans (rfl)
/-- The first weight matrix as region 0 finds it. -/
theorem w1_at1 : W1 m ρ c (Proc.devRef .tc main_arg4) = m ((c : Thread nD τ).loc main_arg4) :=
  (by host_step : W1 m ρ c (Proc.devRef .tc main_arg4) = W0 m ρ c (Proc.devRef .tc main_arg4)).trans (rfl)
/-- The edge targets at boundary 2. -/
theorem rows_at2 : W2 m ρ c (Proc.devRef .tc main_arg1) = m ((c : Thread nD τ).loc main_arg1) :=
  (W2_of_ne m ρ c main_arg1 (by decide)).trans ((by host_step : W1 m ρ c (Proc.devRef .tc main_arg1) = W0 m ρ c (Proc.devRef .tc main_arg1)).trans (rfl))
/-- The edge targets at boundary 6. -/
theorem rows_at6 : W6 m ρ c (Proc.devRef .tc main_arg1) = m ((c : Thread nD τ).loc main_arg1) :=
  (W6_of_ne m ρ c main_arg1 (by decide)).trans ((by host_step : W5 m ρ c (Proc.devRef .tc main_arg1) = W4 m ρ c (Proc.devRef .tc main_arg1)).trans ((W4_of_ne m ρ c main_arg1 (by decide)).trans ((by host_step : W3 m ρ c (Proc.devRef .tc main_arg1) = W2 m ρ c (Proc.devRef .tc main_arg1)).trans ((W2_of_ne m ρ c main_arg1 (by decide)).trans ((by host_step : W1 m ρ c (Proc.devRef .tc main_arg1) = W0 m ρ c (Proc.devRef .tc main_arg1)).trans (rfl))))))
/-- The edge targets at boundary 10. -/
theorem rows_at10 : W10 m ρ c (Proc.devRef .tc main_arg1) = m ((c : Thread nD τ).loc main_arg1) :=
  (W10_of_ne m ρ c main_arg1 (by decide)).trans ((by host_step : W9 m ρ c (Proc.devRef .tc main_arg1) = W8 m ρ c (Proc.devRef .tc main_arg1)).trans ((W8_of_ne m ρ c main_arg1 (by decide)).trans ((by host_step : W7 m ρ c (Proc.devRef .tc main_arg1) = W6 m ρ c (Proc.devRef .tc main_arg1)).trans ((W6_of_ne m ρ c main_arg1 (by decide)).trans ((by host_step : W5 m ρ c (Proc.devRef .tc main_arg1) = W4 m ρ c (Proc.devRef .tc main_arg1)).trans ((W4_of_ne m ρ c main_arg1 (by decide)).trans ((by host_step : W3 m ρ c (Proc.devRef .tc main_arg1) = W2 m ρ c (Proc.devRef .tc main_arg1)).trans ((W2_of_ne m ρ c main_arg1 (by decide)).trans ((by host_step : W1 m ρ c (Proc.devRef .tc main_arg1) = W0 m ρ c (Proc.devRef .tc main_arg1)).trans (rfl))))))))))
/-- The edge sources at boundary 2. -/
theorem cols_at2 : W2 m ρ c (Proc.devRef .tc main_arg2) = m ((c : Thread nD τ).loc main_arg2) :=
  (W2_of_ne m ρ c main_arg2 (by decide)).trans ((by host_step : W1 m ρ c (Proc.devRef .tc main_arg2) = W0 m ρ c (Proc.devRef .tc main_arg2)).trans (rfl))
/-- The edge sources at boundary 6. -/
theorem cols_at6 : W6 m ρ c (Proc.devRef .tc main_arg2) = m ((c : Thread nD τ).loc main_arg2) :=
  (W6_of_ne m ρ c main_arg2 (by decide)).trans ((by host_step : W5 m ρ c (Proc.devRef .tc main_arg2) = W4 m ρ c (Proc.devRef .tc main_arg2)).trans ((W4_of_ne m ρ c main_arg2 (by decide)).trans ((by host_step : W3 m ρ c (Proc.devRef .tc main_arg2) = W2 m ρ c (Proc.devRef .tc main_arg2)).trans ((W2_of_ne m ρ c main_arg2 (by decide)).trans ((by host_step : W1 m ρ c (Proc.devRef .tc main_arg2) = W0 m ρ c (Proc.devRef .tc main_arg2)).trans (rfl))))))
/-- The edge sources at boundary 10. -/
theorem cols_at10 : W10 m ρ c (Proc.devRef .tc main_arg2) = m ((c : Thread nD τ).loc main_arg2) :=
  (W10_of_ne m ρ c main_arg2 (by decide)).trans ((by host_step : W9 m ρ c (Proc.devRef .tc main_arg2) = W8 m ρ c (Proc.devRef .tc main_arg2)).trans ((W8_of_ne m ρ c main_arg2 (by decide)).trans ((by host_step : W7 m ρ c (Proc.devRef .tc main_arg2) = W6 m ρ c (Proc.devRef .tc main_arg2)).trans ((W6_of_ne m ρ c main_arg2 (by decide)).trans ((by host_step : W5 m ρ c (Proc.devRef .tc main_arg2) = W4 m ρ c (Proc.devRef .tc main_arg2)).trans ((W4_of_ne m ρ c main_arg2 (by decide)).trans ((by host_step : W3 m ρ c (Proc.devRef .tc main_arg2) = W2 m ρ c (Proc.devRef .tc main_arg2)).trans ((W2_of_ne m ρ c main_arg2 (by decide)).trans ((by host_step : W1 m ρ c (Proc.devRef .tc main_arg2) = W0 m ρ c (Proc.devRef .tc main_arg2)).trans (rfl))))))))))
/-- The edge weights at boundary 2. -/
theorem vals_at2 : W2 m ρ c (Proc.devRef .tc main_arg3) = m ((c : Thread nD τ).loc main_arg3) :=
  (W2_of_ne m ρ c main_arg3 (by decide)).trans ((by host_step : W1 m ρ c (Proc.devRef .tc main_arg3) = W0 m ρ c (Proc.devRef .tc main_arg3)).trans (rfl))
/-- The edge weights at boundary 6. -/
theorem vals_at6 : W6 m ρ c (Proc.devRef .tc main_arg3) = m ((c : Thread nD τ).loc main_arg3) :=
  (W6_of_ne m ρ c main_arg3 (by decide)).trans ((by host_step : W5 m ρ c (Proc.devRef .tc main_arg3) = W4 m ρ c (Proc.devRef .tc main_arg3)).trans ((W4_of_ne m ρ c main_arg3 (by decide)).trans ((by host_step : W3 m ρ c (Proc.devRef .tc main_arg3) = W2 m ρ c (Proc.devRef .tc main_arg3)).trans ((W2_of_ne m ρ c main_arg3 (by decide)).trans ((by host_step : W1 m ρ c (Proc.devRef .tc main_arg3) = W0 m ρ c (Proc.devRef .tc main_arg3)).trans (rfl))))))
/-- The edge weights at boundary 10. -/
theorem vals_at10 : W10 m ρ c (Proc.devRef .tc main_arg3) = m ((c : Thread nD τ).loc main_arg3) :=
  (W10_of_ne m ρ c main_arg3 (by decide)).trans ((by host_step : W9 m ρ c (Proc.devRef .tc main_arg3) = W8 m ρ c (Proc.devRef .tc main_arg3)).trans ((W8_of_ne m ρ c main_arg3 (by decide)).trans ((by host_step : W7 m ρ c (Proc.devRef .tc main_arg3) = W6 m ρ c (Proc.devRef .tc main_arg3)).trans ((W6_of_ne m ρ c main_arg3 (by decide)).trans ((by host_step : W5 m ρ c (Proc.devRef .tc main_arg3) = W4 m ρ c (Proc.devRef .tc main_arg3)).trans ((W4_of_ne m ρ c main_arg3 (by decide)).trans ((by host_step : W3 m ρ c (Proc.devRef .tc main_arg3) = W2 m ρ c (Proc.devRef .tc main_arg3)).trans ((W2_of_ne m ρ c main_arg3 (by decide)).trans ((by host_step : W1 m ρ c (Proc.devRef .tc main_arg3) = W0 m ρ c (Proc.devRef .tc main_arg3)).trans (rfl))))))))))
/-- The second bias at boundary 4. -/
theorem b2_at4 : W4 m ρ c (Proc.devRef .tc main_arg7) = m ((c : Thread nD τ).loc main_arg7) :=
  (W4_of_ne m ρ c main_arg7 (by decide)).trans ((by host_step : W3 m ρ c (Proc.devRef .tc main_arg7) = W2 m ρ c (Proc.devRef .tc main_arg7)).trans ((W2_of_ne m ρ c main_arg7 (by decide)).trans ((by host_step : W1 m ρ c (Proc.devRef .tc main_arg7) = W0 m ρ c (Proc.devRef .tc main_arg7)).trans (rfl))))
/-- The second weight matrix as region 2 finds it. -/
theorem w2_at5 : W5 m ρ c (Proc.devRef .tc main_arg6) = m ((c : Thread nD τ).loc main_arg6) :=
  (by host_step : W5 m ρ c (Proc.devRef .tc main_arg6) = W4 m ρ c (Proc.devRef .tc main_arg6)).trans ((W4_of_ne m ρ c main_arg6 (by decide)).trans ((by host_step : W3 m ρ c (Proc.devRef .tc main_arg6) = W2 m ρ c (Proc.devRef .tc main_arg6)).trans ((W2_of_ne m ρ c main_arg6 (by decide)).trans ((by host_step : W1 m ρ c (Proc.devRef .tc main_arg6) = W0 m ρ c (Proc.devRef .tc main_arg6)).trans (rfl)))))
/-- The third bias at boundary 8. -/
theorem b3_at8 : W8 m ρ c (Proc.devRef .tc main_arg9) = m ((c : Thread nD τ).loc main_arg9) :=
  (W8_of_ne m ρ c main_arg9 (by decide)).trans ((by host_step : W7 m ρ c (Proc.devRef .tc main_arg9) = W6 m ρ c (Proc.devRef .tc main_arg9)).trans ((W6_of_ne m ρ c main_arg9 (by decide)).trans ((by host_step : W5 m ρ c (Proc.devRef .tc main_arg9) = W4 m ρ c (Proc.devRef .tc main_arg9)).trans ((W4_of_ne m ρ c main_arg9 (by decide)).trans ((by host_step : W3 m ρ c (Proc.devRef .tc main_arg9) = W2 m ρ c (Proc.devRef .tc main_arg9)).trans ((W2_of_ne m ρ c main_arg9 (by decide)).trans ((by host_step : W1 m ρ c (Proc.devRef .tc main_arg9) = W0 m ρ c (Proc.devRef .tc main_arg9)).trans (rfl))))))))
/-- The third weight matrix as region 4 finds it. -/
theorem w3_at9 : W9 m ρ c (Proc.devRef .tc main_arg8) = m ((c : Thread nD τ).loc main_arg8) :=
  (by host_step : W9 m ρ c (Proc.devRef .tc main_arg8) = W8 m ρ c (Proc.devRef .tc main_arg8)).trans ((W8_of_ne m ρ c main_arg8 (by decide)).trans ((by host_step : W7 m ρ c (Proc.devRef .tc main_arg8) = W6 m ρ c (Proc.devRef .tc main_arg8)).trans ((W6_of_ne m ρ c main_arg8 (by decide)).trans ((by host_step : W5 m ρ c (Proc.devRef .tc main_arg8) = W4 m ρ c (Proc.devRef .tc main_arg8)).trans ((W4_of_ne m ρ c main_arg8 (by decide)).trans ((by host_step : W3 m ρ c (Proc.devRef .tc main_arg8) = W2 m ρ c (Proc.devRef .tc main_arg8)).trans ((W2_of_ne m ρ c main_arg8 (by decide)).trans ((by host_step : W1 m ρ c (Proc.devRef .tc main_arg8) = W0 m ρ c (Proc.devRef .tc main_arg8)).trans (rfl)))))))))

/-- The first bias as region 0 finds it: the launch vector laid out as one row. -/
theorem b1_at1 : W1 m ρ c (Proc.devRef .tc main_v2) = row1 (m ((c : Thread nD τ).loc main_arg5)) := by
  host_step; rfl
/-- The second bias as region 2 finds it. -/
theorem b2_at5 : W5 m ρ c (Proc.devRef .tc main_v18) = row2 (m ((c : Thread nD τ).loc main_arg7)) := by
  host_step; rw [b2_at4]; rfl
/-- The third bias as region 4 finds it. -/
theorem b3_at9 : W9 m ρ c (Proc.devRef .tc main_v34) = row3 (m ((c : Thread nD τ).loc main_arg9)) := by
  host_step; rw [b3_at8]; rfl
/-- The first keep mask as a float array, as region 1 finds it. -/
theorem mask1_at3 : W3 m ρ c (Proc.devRef .tc main_v0) = uitofp (F := Ideal) .f32 (m ((c : Thread nD τ).loc main_arg10)) :=
  (by host_step : W3 m ρ c (Proc.devRef .tc main_v0) = W2 m ρ c (Proc.devRef .tc main_v0)).trans ((W2_of_ne m ρ c main_v0 (by decide)).trans (by host_step))
/-- The second keep mask as a float array, as region 3 finds it. -/
theorem mask2_at7 : W7 m ρ c (Proc.devRef .tc main_v1) = uitofp (F := Ideal) .f32 (m ((c : Thread nD τ).loc main_arg11)) :=
  (by host_step : W7 m ρ c (Proc.devRef .tc main_v1) = W6 m ρ c (Proc.devRef .tc main_v1)).trans ((W6_of_ne m ρ c main_v1 (by decide)).trans ((by host_step : W5 m ρ c (Proc.devRef .tc main_v1) = W4 m ρ c (Proc.devRef .tc main_v1)).trans ((W4_of_ne m ρ c main_v1 (by decide)).trans ((by host_step : W3 m ρ c (Proc.devRef .tc main_v1) = W2 m ρ c (Proc.devRef .tc main_v1)).trans ((W2_of_ne m ρ c main_v1 (by decide)).trans (by host_step))))))

/-! ## The stages -/

/-- Layer 1's dense map: region 0's output array. -/
theorem dense1_at2 : W2 m ρ c (Proc.devRef .tc main_v3) = (dense1 (m ((c : Thread nD τ).loc main_arg0)) (m ((c : Thread nD τ).loc main_arg4)) (row1 (m ((c : Thread nD τ).loc main_arg5)))) := by
  refine (W2_arr m ρ c 3).trans ((Dense1.final (V1 m ρ) c).trans ?_)
  show dense1 (W1 m ρ c (Proc.devRef .tc main_arg0)) (W1 m ρ c (Proc.devRef .tc main_arg4)) (W1 m ρ c (Proc.devRef .tc main_v2)) = _
  rw [x_at1, w1_at1, b1_at1]

/-- Layer 1's adjacency product: what the host stretch after region 0 leaves. -/
theorem spmm1_at3 : W3 m ρ c (Proc.devRef .tc main_v16) = (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) := by
  refine (Stretch.after1 (W2 m ρ c)).trans ?_
  rw [dense1_at2, rows_at2, cols_at2, vals_at2]

/-- Layer 1's activation: region 1's output array. -/
theorem act1_at4 : W4 m ρ c (Proc.devRef .tc main_v17) = (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) := by
  refine (W4_arr m ρ c 2).trans ((Act1.final (V3 m ρ) c).trans ?_)
  show act1 (W3 m ρ c (Proc.devRef .tc main_v16)) (W3 m ρ c (Proc.devRef .tc main_v0)) = _
  rw [spmm1_at3, mask1_at3]

/-- The same array as region 2 finds it. -/
theorem act1_at5 : W5 m ρ c (Proc.devRef .tc main_v17) = (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) :=
  (by host_step : W5 m ρ c (Proc.devRef .tc main_v17) = W4 m ρ c (Proc.devRef .tc main_v17)).trans (act1_at4 m ρ c)

/-- Layer 2's dense map: region 2's output array. -/
theorem dense2_at6 : W6 m ρ c (Proc.devRef .tc main_v19) = (dense2 (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) (m ((c : Thread nD τ).loc main_arg6)) (row2 (m ((c : Thread nD τ).loc main_arg7)))) := by
  refine (W6_arr m ρ c 3).trans ((Dense2.final (V5 m ρ) c).trans ?_)
  show dense2 (W5 m ρ c (Proc.devRef .tc main_v17)) (W5 m ρ c (Proc.devRef .tc main_arg6)) (W5 m ρ c (Proc.devRef .tc main_v18)) = _
  rw [act1_at5, w2_at5, b2_at5]

/-- Layer 2's adjacency product. -/
theorem spmm2_at7 : W7 m ρ c (Proc.devRef .tc main_v32) = (spmm2 (dense2 (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) (m ((c : Thread nD τ).loc main_arg6)) (row2 (m ((c : Thread nD τ).loc main_arg7)))) (m ((c : Thread nD τ).loc main_arg1)) (m ((c : Thread nD τ).loc main_arg2)) (m ((c : Thread nD τ).loc main_arg3))) := by
  refine (Stretch.after3 (W6 m ρ c)).trans ?_
  rw [dense2_at6, rows_at6, cols_at6, vals_at6]

/-- Layer 2's activation: region 3's output array. -/
theorem act2_at8 : W8 m ρ c (Proc.devRef .tc main_v33) = (act2 (spmm2 (dense2 (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) (m ((c : Thread nD τ).loc main_arg6)) (row2 (m ((c : Thread nD τ).loc main_arg7)))) (m ((c : Thread nD τ).loc main_arg1)) (m ((c : Thread nD τ).loc main_arg2)) (m ((c : Thread nD τ).loc main_arg3))) (uitofp (F := Ideal) .f32 (m ((c : Thread nD τ).loc main_arg11)))) := by
  refine (W8_arr m ρ c 2).trans ((Act2.final (V7 m ρ) c).trans ?_)
  show act2 (W7 m ρ c (Proc.devRef .tc main_v32)) (W7 m ρ c (Proc.devRef .tc main_v1)) = _
  rw [spmm2_at7, mask2_at7]

/-- The same array as region 4 finds it. -/
theorem act2_at9 : W9 m ρ c (Proc.devRef .tc main_v33) = (act2 (spmm2 (dense2 (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) (m ((c : Thread nD τ).loc main_arg6)) (row2 (m ((c : Thread nD τ).loc main_arg7)))) (m ((c : Thread nD τ).loc main_arg1)) (m ((c : Thread nD τ).loc main_arg2)) (m ((c : Thread nD τ).loc main_arg3))) (uitofp (F := Ideal) .f32 (m ((c : Thread nD τ).loc main_arg11)))) :=
  (by host_step : W9 m ρ c (Proc.devRef .tc main_v33) = W8 m ρ c (Proc.devRef .tc main_v33)).trans (act2_at8 m ρ c)

/-- Layer 3's dense map: region 4's output array. -/
theorem dense3_at10 : W10 m ρ c (Proc.devRef .tc main_v35) = (dense3 (act2 (spmm2 (dense2 (act1 (spmm1 (dense1 (m ((c : Thread nD τ).loc main_arg0)) (m ((c : Thread nD τ).loc main_arg4)) (row1 (m ((c : Thread nD τ).loc main_arg5)))) (m ((c : Thread nD τ).loc main_arg1)) (m ((c : Thread nD τ).loc main_arg2)) (m ((c : Thread nD τ).loc main_arg3))) (uitofp (F := Ideal) .f32 (m ((c : Thread nD τ).loc main_arg10)))) (m ((c : Thread nD τ).loc main_arg6)) (row2 (m ((c : Thread nD τ).loc main_arg7)))) (m ((c : Thread nD τ).loc main_arg1)) (m ((c : Thread nD τ).loc main_arg2)) (m ((c : Thread nD τ).loc main_arg3))) (uitofp (F := Ideal) .f32 (m ((c : Thread nD τ).loc main_arg11)))) (m ((c : Thread nD τ).loc main_arg8)) (row3 (m ((c : Thread nD τ).loc main_arg9)))) := by
  refine (W10_arr m ρ c 3).trans ((Dense3.final (V9 m ρ) c).trans ?_)
  show dense3 (W9 m ρ c (Proc.devRef .tc main_v33)) (W9 m ρ c (Proc.devRef .tc main_arg8)) (W9 m ρ c (Proc.devRef .tc main_v34)) = _
  rw [act2_at9, w3_at9, b3_at9]

/-- THE RESULT: the last host stretch's adjacency product of layer 3's dense map — the encoder of the launch arguments. -/
theorem result : W11 m ρ c (Proc.devRef .tc main_v48)
    = enc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Stretch.after5 (W10 m ρ c)).trans ?_
  rw [dense3_at10, rows_at10, cols_at10, vals_at10]
  rfl

end Cert.Encoder.KernelValue

end
-- ==== Proof.RefValue.lean ====
/-
  The reference, stage by stage: its dense maps, its sparse adjacency products and its activations are the encoder's
  `dense`, `spmm` and `act`, so its result is `enc` of its arguments.
-/
import proofs.«151089_j50611894616713_1_alg».proof.Proof.Encoder
import proofs.«151089_j50611894616713_1_alg».proof.Proof.Gen.ReferenceIdeal.Read

set_option maxRecDepth 16384

noncomputable section

namespace Cert.Encoder.Ref

open Idealize.ShloMosaic Idealize.ShloMosaic.ValueIdx
open Cert.ReferenceIdeal Cert.ReferenceIdeal.Gen Cert.ReferenceIdeal.Read
open scoped BigOperators

/-! ## Layer 1 -/

/-- The reference's dense map of layer 1 — a transpose of the weights, one `dot_general`, the bias broadcast along the
    rows, a sum — is `dense1`: the product reads x[r, k] · w[j, k], the bias b[j]. -/
theorem dense1_eq (x0 : (⟨S50000x256, .f32⟩ : BufTy).Contents (Elt Ideal)) (x4 : (⟨S256x256, .f32⟩ : BufTy).Contents (Elt Ideal)) (x5 : (⟨S256, .f32⟩ : BufTy).Contents (Elt Ideal)) :
    val_main_v4 (F := Ideal) x0 x4 x5 = dense1 x0 x4 (row1 x5) := by
  funext i
  rw [val_main_v4_apply, val_main_v1_apply, val_main_v3_apply, val_main_v2_apply, Ideal.addf_def]
  unfold dense1
  refine congrArg₂ (· + ·) (Finset.sum_congr rfl fun k _ => congrArg₂ (· * ·) ?_ ?_) ?_
  · exact congrArg x0 (funext fun a => by match a with | ⟨0, _⟩ => rfl | ⟨1, _⟩ => rfl)
  · rw [val_main_v0_apply]
    exact congrArg x4 (funext fun a => by match a with | ⟨0, _⟩ => rfl | ⟨1, _⟩ => rfl)
  · refine Eq.trans ?_ (row1_apply x5 _ _).symm
    exact congrArg x5 (funext fun a => by match a with | ⟨0, _⟩ => rfl)

/-- The reference's sparse adjacency product of layer 1 is the kernel program's, operation for operation. -/
theorem spmm1_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) :
    val_main_v17 (F := Ideal) x0 x1 x2 x3 x4 x5 = spmm1 (val_main_v4 (F := Ideal) x0 x4 x5) x1 x2 x3 := by
  unfold val_main_v17 val_main_v15 val_main_v16 val_main_v14 val_main_v13 val_main_v12 val_main_v11 val_main_v10 val_main_v9 val_main_v8 val_main_v7 val_main_v6 val_main_v5 val_main_cst val_main_c val_main_c_0 spmm1
  generalize val_main_v4 (F := Ideal) x0 x4 x5 = z
  rfl

/-- The reference's activation of layer 1 — the leaky rectifier, the rescale, then a selection between the value and
    zero by the boolean mask — is `act1` at the mask read as a float: `select_eq_mul_mask`. -/
theorem act1_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x10 : (⟨S50000x256, .i1⟩ : BufTy).Contents (Elt Ideal)) :
    val_main_v25 (F := Ideal) x0 x1 x2 x3 x4 x5 x10 = act1 (val_main_v17 (F := Ideal) x0 x1 x2 x3 x4 x5) (uitofp (F := Ideal) .f32 x10) := by
  funext i
  rw [val_main_v25_apply, val_main_v24_apply, val_main_v22_apply, val_main_v19_apply, val_main_v21_apply, val_main_v23_apply, val_main_v20_apply, val_main_v18_apply, val_main_call1_v1_apply, val_main_call1_v0_apply, val_main_cst_4_apply, val_main_cst_3_apply, val_main_cst_2_apply, val_main_cst_1_apply]
  show _ = actS (val_main_v17 (F := Ideal) x0 x1 x2 x3 x4 x5 i) (FloatOps.uitofp (F := Ideal) .f32 (x10 i))
  generalize val_main_v17 (F := Ideal) x0 x1 x2 x3 x4 x5 i = h
  exact Cert.Lib.MaskSelect.select_eq_mul_mask (x10 i) _

/-! ## Layer 2 -/

/-- The reference's dense map of layer 2 — a transpose of the weights, one `dot_general`, the bias broadcast along the
    rows, a sum — is `dense2`: the product reads x[r, k] · w[j, k], the bias b[j]. -/
theorem dense2_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x10 : (⟨S50000x256, .i1⟩ : BufTy).Contents (Elt Ideal)) :
    val_main_v30 (F := Ideal) x0 x1 x2 x3 x4 x5 x6 x7 x10 = dense2 (val_main_v25 (F := Ideal) x0 x1 x2 x3 x4 x5 x10) x6 (row2 x7) := by
  funext i
  rw [val_main_v30_apply, val_main_v27_apply, val_main_v29_apply, val_main_v28_apply, Ideal.addf_def]
  generalize val_main_v25 (F := Ideal) x0 x1 x2 x3 x4 x5 x10 = z
  unfold dense2
  refine congrArg₂ (· + ·) (Finset.sum_congr rfl fun k _ => congrArg₂ (· * ·) ?_ ?_) ?_
  · exact congrArg z (funext fun a => by match a with | ⟨0, _⟩ => rfl | ⟨1, _⟩ => rfl)
  · rw [val_main_v26_apply]
    exact congrArg x6 (funext fun a => by match a with | ⟨0, _⟩ => rfl | ⟨1, _⟩ => rfl)
  · refine Eq.trans ?_ (row2_apply x7 _ _).symm
    exact congrArg x7 (funext fun a => by match a with | ⟨0, _⟩ => rfl)

/-- The reference's sparse adjacency product of layer 2 is the kernel program's, operation for operation. -/
theorem spmm2_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x10 : (⟨S50000x256, .i1⟩ : BufTy).Contents (Elt Ideal)) :
    val_main_v43 (F := Ideal) x0 x1 x2 x3 x4 x5 x6 x7 x10 = spmm2 (val_main_v30 (F := Ideal) x0 x1 x2 x3 x4 x5 x6 x7 x10) x1 x2 x3 := by
  unfold val_main_v43 val_main_v41 val_main_v42 val_main_v40 val_main_v39 val_main_v38 val_main_v37 val_main_v36 val_main_v35 val_main_v34 val_main_v33 val_main_v32 val_main_v31 val_main_cst_7 val_main_c_5 val_main_c_6 spmm2
  generalize val_main_v30 (F := Ideal) x0 x1 x2 x3 x4 x5 x6 x7 x10 = z
  rfl

/-- The reference's activation of layer 2 — the leaky rectifier, the rescale, then a selection between the value and
    zero by the boolean mask — is `act2` at the mask read as a float: `select_eq_mul_mask`. -/
theorem act2_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x10 : (⟨S50000x256, .i1⟩ : BufTy).Contents (Elt Ideal)) (x11 : (⟨S50000x128, .i1⟩ : BufTy).Contents (Elt Ideal)) :
    val_main_v51 (F := Ideal) x0 x1 x2 x3 x4 x5 x6 x7 x10 x11 = act2 (val_main_v43 (F := Ideal) x0 x1 x2 x3 x4 x5 x6 x7 x10) (uitofp (F := Ideal) .f32 x11) := by
  funext i
  rw [val_main_v51_apply, val_main_v50_apply, val_main_v48_apply, val_main_v45_apply, val_main_v47_apply, val_main_v49_apply, val_main_v46_apply, val_main_v44_apply, val_main_call3_v1_apply, val_main_call3_v0_apply, val_main_cst_11_apply, val_main_cst_10_apply, val_main_cst_9_apply, val_main_cst_8_apply]
  show _ = actS (val_main_v43 (F := Ideal) x0 x1 x2 x3 x4 x5 x6 x7 x10 i) (FloatOps.uitofp (F := Ideal) .f32 (x11 i))
  generalize val_main_v43 (F := Ideal) x0 x1 x2 x3 x4 x5 x6 x7 x10 i = h
  exact Cert.Lib.MaskSelect.select_eq_mul_mask (x11 i) _

/-! ## Layer 3 -/

/-- The reference's dense map of layer 3 — a transpose of the weights, one `dot_general`, the bias broadcast along the
    rows, a sum — is `dense3`: the product reads x[r, k] · w[j, k], the bias b[j]. -/
theorem dense3_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S50000x256, .i1⟩ : BufTy).Contents (Elt Ideal)) (x11 : (⟨S50000x128, .i1⟩ : BufTy).Contents (Elt Ideal)) :
    val_main_v56 (F := Ideal) x0 x1 x2 x3 x4 x5 x6 x7 x8 x9 x10 x11 = dense3 (val_main_v51 (F := Ideal) x0 x1 x2 x3 x4 x5 x6 x7 x10 x11) x8 (row3 x9) := by
  funext i
  rw [val_main_v56_apply, val_main_v53_apply, val_main_v55_apply, val_main_v54_apply, Ideal.addf_def]
  generalize val_main_v51 (F := Ideal) x0 x1 x2 x3 x4 x5 x6 x7 x10 x11 = z
  unfold dense3
  refine congrArg₂ (· + ·) (Finset.sum_congr rfl fun k _ => congrArg₂ (· * ·) ?_ ?_) ?_
  · exact congrArg z (funext fun a => by match a with | ⟨0, _⟩ => rfl | ⟨1, _⟩ => rfl)
  · rw [val_main_v52_apply]
    exact congrArg x8 (funext fun a => by match a with | ⟨0, _⟩ => rfl | ⟨1, _⟩ => rfl)
  · refine Eq.trans ?_ (row3_apply x9 _ _).symm
    exact congrArg x9 (funext fun a => by match a with | ⟨0, _⟩ => rfl)

/-- The reference's sparse adjacency product of layer 3 is the kernel program's, operation for operation. -/
theorem spmm3_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S50000x256, .i1⟩ : BufTy).Contents (Elt Ideal)) (x11 : (⟨S50000x128, .i1⟩ : BufTy).Contents (Elt Ideal)) :
    val_main_v69 (F := Ideal) x0 x1 x2 x3 x4 x5 x6 x7 x8 x9 x10 x11 = spmm3 (val_main_v56 (F := Ideal) x0 x1 x2 x3 x4 x5 x6 x7 x8 x9 x10 x11) x1 x2 x3 := by
  unfold val_main_v69 val_main_v67 val_main_v68 val_main_v66 val_main_v65 val_main_v64 val_main_v63 val_main_v62 val_main_v61 val_main_v60 val_main_v59 val_main_v58 val_main_v57 val_main_cst_14 val_main_c_12 val_main_c_13 spmm3
  generalize val_main_v56 (F := Ideal) x0 x1 x2 x3 x4 x5 x6 x7 x8 x9 x10 x11 = z
  rfl

/-! ## The whole reference -/

/-- The reference's result term is the encoder of its arguments: the eight stage equations, composed. -/
theorem ref_eq (x0 : (⟨S50000x256, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S256x256, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S50000x256, .i1⟩ : BufTy).Contents (Elt Ideal)) (x11 : (⟨S50000x128, .i1⟩ : BufTy).Contents (Elt Ideal)) :
    val_main_v69 (F := Ideal) x0 x1 x2 x3 x4 x5 x6 x7 x8 x9 x10 x11 = enc x0 x1 x2 x3 x4 x5 x6 x7 x8 x9 x10 x11 := by
  rw [spmm3_eq, dense3_eq, act2_eq, spmm2_eq, dense2_eq, act1_eq, spmm1_eq, dense1_eq]
  rfl

end Cert.Encoder.Ref

end
-- ==== Proof.lean ====
/-
  The claim for the three-layer graph encoder: the Pallas program (five kernel regions — three blocked dense layers and
  two fused activations — among host stretches that hold the sparse adjacency products) against the plain jnp
  reference.

  Both programs compute, at the ideal values, the ONE function `Cert.Encoder.enc` of the twelve argument arrays:
    spmm ∘ dense₃ ∘ act₂ ∘ spmm ∘ dense₂ ∘ act₁ ∘ spmm ∘ dense₁.
  * `dense`: the kernel multiplies 2000-row blocks by the transposed weights on the matrix unit after a change of float
    format (the identity on extended reals) into a zero accumulator; the reference applies one `dot_general` to the
    whole array. Both are the sum over k of x[r, k] · w[j, k], plus the bias.
  * `spmm`: the same host operations in both programs, carried as one function and never opened.
  * `act`: the kernel multiplies by the keep mask converted to a float; the reference selects between the value and
    zero by the boolean mask. y · 1 = y and y · 0 = 0 hold for every extended real, so the precondition (finite inputs)
    is never opened.
  The ideal pass rewrote nothing in the kernel, so `preserves` is trivial; the three frames are the generated frame
  proofs and the reference's generated run.
-/
import proofs.«151089_j50611894616713_1_alg».proof.Defs
import proofs.«151089_j50611894616713_1_alg».proof.Proof.Gen.Kernel
import proofs.«151089_j50611894616713_1_alg».proof.Proof.Gen.Kernel.Skeleton
import proofs.«151089_j50611894616713_1_alg».proof.Proof.Gen.Kernel.Launch
import proofs.«151089_j50611894616713_1_alg».proof.Proof.Gen.Kernel.Points
import proofs.«151089_j50611894616713_1_alg».proof.Proof.Gen.Kernel.Frame
import proofs.«151089_j50611894616713_1_alg».proof.Proof.Gen.KernelIdeal
import proofs.«151089_j50611894616713_1_alg».proof.Proof.Gen.KernelIdeal.Skeleton
import proofs.«151089_j50611894616713_1_alg».proof.Proof.Gen.KernelIdeal.Launch
import proofs.«151089_j50611894616713_1_alg».proof.Proof.Gen.KernelIdeal.Points
import proofs.«151089_j50611894616713_1_alg».proof.Proof.Gen.KernelIdeal.Frame
import proofs.«151089_j50611894616713_1_alg».proof.Proof.Gen.ReferenceIdeal
import proofs.«151089_j50611894616713_1_alg».proof.Proof.Gen.Pre_finite_inputs
import proofs.«151089_j50611894616713_1_alg».proof.Proof.Gen.ReferenceIdeal.Run
import proofs.«151089_j50611894616713_1_alg».proof.Proof.Gen.ReferenceIdeal.Read
import proofs.«151089_j50611894616713_1_alg».proof.Proof.KernelRun
import proofs.«151089_j50611894616713_1_alg».proof.Proof.KernelValue
import proofs.«151089_j50611894616713_1_alg».proof.Proof.RefValue
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as launched: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the encoder of those arguments in their result
    buffers: the kernel's fold read back stage by stage, the reference's composed term stage by stage. -/
theorem algebraic : Cert.algebraic_KernelIdeal_ReferenceIdeal := by
  intro m ρ m' ρ' _ hagree
  refine ⟨fun c => Cert.Encoder.enc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Encoder.KernelValue.result m ρ c), (h c).2⟩)
      (Cert.Encoder.KernelRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v69_eq, Cert.Encoder.Ref.ref_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
